-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x128 : Shape := ⟨3, ![16, 512, 128]⟩
abbrev S20x128 : Shape := ⟨2, ![20, 128]⟩
abbrev S_ : Shape := ⟨0, ![]⟩

class Facts : Prop where
  bcast_S_S16x512x128 : S_.BroadcastsInDim S16x512x128 (![] : Fin 0 → Fin S16x512x128.rank)
  reducesTo_S16x512x128_S_d0_1_2 : S16x512x128.ReducesTo [0, 1, 2] S_
  h_S_ : 0 < S_.numel
  bcast_S_S20x128 : S_.BroadcastsInDim S20x128 (![] : Fin 0 → Fin S20x128.rank)
  reducesTo_S20x128_S_d0_1 : S20x128.ReducesTo [0, 1] S_

variable [Facts]

def fn {F : FTy → Type} [FloatOps F] (main_arg0 : FVec F S16x512x128 .f32) (main_arg1 : FVec F S16x512x128 .f32) (main_arg2 : FVec F S20x128 .f32) : IVec S_ 1 :=
  let main_v0 : FVec F S16x512x128 .f32 := Host.absf main_arg0
  let main_cst : FVec F S_ .f32 := constant S_ .f32 0x7F800000#32
  let main_v1 : FVec F S16x512x128 .f32 := broadcastInDim S16x512x128 ![] bcast_S_S16x512x128 main_cst
  let main_v2 : IVec S16x512x128 1 := cmpf .olt main_v0 main_v1
  let main_c : IVec S_ 1 := constantI S_ 1 1#1
  let main_v3 : IVec S_ 1 := (fun x v => Host.reduce IntOp.andi x v reducesTo_S16x512x128_S_d0_1_2 h_S_) main_v2 main_c
  let main_v4 : FVec F S16x512x128 .f32 := Host.absf main_arg1
  let main_cst_0 : FVec F S_ .f32 := constant S_ .f32 0x7F800000#32
  let main_v5 : FVec F S16x512x128 .f32 := broadcastInDim S16x512x128 ![] bcast_S_S16x512x128 main_cst_0
  let main_v6 : IVec S16x512x128 1 := cmpf .olt main_v4 main_v5
  let main_c_1 : IVec S_ 1 := constantI S_ 1 1#1
  let main_v7 : IVec S_ 1 := (fun x v => Host.reduce IntOp.andi x v reducesTo_S16x512x128_S_d0_1_2 h_S_) main_v6 main_c_1
  let main_v8 : IVec S_ 1 := andi main_v3 main_v7
  let main_v9 : FVec F S20x128 .f32 := Host.absf main_arg2
  let main_cst_2 : FVec F S_ .f32 := constant S_ .f32 0x7F800000#32
  let main_v10 : FVec F S20x128 .f32 := broadcastInDim S20x128 ![] bcast_S_S20x128 main_cst_2
  let main_v11 : IVec S20x128 1 := cmpf .olt main_v9 main_v10
  let main_c_3 : IVec S_ 1 := constantI S_ 1 1#1
  let main_v12 : IVec S_ 1 := (fun x v => Host.reduce IntOp.andi x v reducesTo_S20x128_S_d0_1 h_S_) main_v11 main_c_3
  let main_v13 : IVec S_ 1 := andi main_v8 main_v12
  main_v13
-- ==== Kernel.lean ====
abbrev S16x512x128 : Shape := ⟨3, ![16, 512, 128]⟩
abbrev S20x128 : Shape := ⟨2, ![20, 128]⟩
abbrev S16x512x512x20 : Shape := ⟨4, ![16, 512, 512, 20]⟩
abbrev S1x64x128 : Shape := ⟨3, ![1, 64, 128]⟩
abbrev S1x512x128 : Shape := ⟨3, ![1, 512, 128]⟩
abbrev S1x64x512x20 : Shape := ⟨4, ![1, 64, 512, 20]⟩
abbrev S64x128 : Shape := ⟨2, ![64, 128]⟩
abbrev S512x128 : Shape := ⟨2, ![512, 128]⟩
abbrev S64x20 : Shape := ⟨2, ![64, 20]⟩
abbrev S512x20 : Shape := ⟨2, ![512, 20]⟩
abbrev S1x128 : Shape := ⟨2, ![1, 128]⟩
abbrev S64x512 : Shape := ⟨2, ![64, 512]⟩
abbrev S64x1 : Shape := ⟨2, ![64, 1]⟩
abbrev S512x1 : Shape := ⟨2, ![512, 1]⟩
abbrev S1x512 : Shape := ⟨2, ![1, 512]⟩
abbrev S64x512x1 : Shape := ⟨3, ![64, 512, 1]⟩
abbrev S64x512x20 : Shape := ⟨3, ![64, 512, 20]⟩

abbrev nBuf : Space → Nat
  | .hbm => 4
  | .vmem => 7
  | .smem => 0
  | _ => 0

abbrev bufTy : (tb : Table) → Fin (tcTables nBuf tb) → BufTy
  | .hbm, ⟨0, _⟩ => ⟨S16x512x128, .f32⟩
  | .hbm, ⟨1, _⟩ => ⟨S16x512x128, .f32⟩
  | .hbm, ⟨2, _⟩ => ⟨S20x128, .f32⟩
  | .hbm, ⟨3, _⟩ => ⟨S16x512x512x20, .f32⟩
  | .local _ .vmem, ⟨0, _⟩ => ⟨S1x64x128, .f32⟩
  | .local _ .vmem, ⟨1, _⟩ => ⟨S1x64x128, .f32⟩
  | .local _ .vmem, ⟨2, _⟩ => ⟨S1x512x128, .f32⟩
  | .local _ .vmem, ⟨3, _⟩ => ⟨S1x512x128, .f32⟩
  | .local _ .vmem, ⟨4, _⟩ => ⟨S20x128, .f32⟩
  | .local _ .vmem, ⟨5, _⟩ => ⟨S1x64x512x20, .f32⟩
  | .local _ .vmem, ⟨6, _⟩ => ⟨S1x64x512x20, .f32⟩
  | _, _ => ⟨S16x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S20x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x512x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S20x128_S20x128_0_0 : ∀ a, (![0, 0] : Fin 2 → Nat) a + S20x128.size a ≤ S20x128.size a
  h_S20x128 : 0 < S20x128.numel
  slices_S20x128_o0_0_S1x128 : S20x128.Slices ![0, 0] S1x128
  broadcasts_S1x128_S64x128 : S1x128.Broadcasts S64x128
  slices_S64x20_o0_0_S64x1 : S64x20.Slices ![0, 0] S64x1
  slices_S512x20_o0_0_S512x1 : S512x20.Slices ![0, 0] S512x1
  transposes_S512x1_p1_0_S1x512 : S512x1.Transposes [1, 0] S1x512
  broadcasts_S64x1_S64x512 : S64x1.Broadcasts S64x512
  broadcasts_S1x512_S64x512 : S1x512.Broadcasts S64x512
  slices_S20x128_o1_0_S1x128 : S20x128.Slices ![1, 0] S1x128
  slices_S64x20_o0_1_S64x1 : S64x20.Slices ![0, 1] S64x1
  slices_S512x20_o0_1_S512x1 : S512x20.Slices ![0, 1] S512x1
  slices_S20x128_o2_0_S1x128 : S20x128.Slices ![2, 0] S1x128
  slices_S64x20_o0_2_S64x1 : S64x20.Slices ![0, 2] S64x1
  slices_S512x20_o0_2_S512x1 : S512x20.Slices ![0, 2] S512x1
  slices_S20x128_o3_0_S1x128 : S20x128.Slices ![3, 0] S1x128
  slices_S64x20_o0_3_S64x1 : S64x20.Slices ![0, 3] S64x1
  slices_S512x20_o0_3_S512x1 : S512x20.Slices ![0, 3] S512x1
  slices_S20x128_o4_0_S1x128 : S20x128.Slices ![4, 0] S1x128
  slices_S64x20_o0_4_S64x1 : S64x20.Slices ![0, 4] S64x1
  slices_S512x20_o0_4_S512x1 : S512x20.Slices ![0, 4] S512x1
  slices_S20x128_o5_0_S1x128 : S20x128.Slices ![5, 0] S1x128
  slices_S64x20_o0_5_S64x1 : S64x20.Slices ![0, 5] S64x1
  slices_S512x20_o0_5_S512x1 : S512x20.Slices ![0, 5] S512x1
  slices_S20x128_o6_0_S1x128 : S20x128.Slices ![6, 0] S1x128
  slices_S64x20_o0_6_S64x1 : S64x20.Slices ![0, 6] S64x1
  slices_S512x20_o0_6_S512x1 : S512x20.Slices ![0, 6] S512x1
  slices_S20x128_o7_0_S1x128 : S20x128.Slices ![7, 0] S1x128
  slices_S64x20_o0_7_S64x1 : S64x20.Slices ![0, 7] S64x1
  slices_S512x20_o0_7_S512x1 : S512x20.Slices ![0, 7] S512x1
  slices_S20x128_o8_0_S1x128 : S20x128.Slices ![8, 0] S1x128
  slices_S64x20_o0_8_S64x1 : S64x20.Slices ![0, 8] S64x1
  slices_S512x20_o0_8_S512x1 : S512x20.Slices ![0, 8] S512x1
  slices_S20x128_o9_0_S1x128 : S20x128.Slices ![9, 0] S1x128
  slices_S64x20_o0_9_S64x1 : S64x20.Slices ![0, 9] S64x1
  slices_S512x20_o0_9_S512x1 : S512x20.Slices ![0, 9] S512x1
  slices_S20x128_o10_0_S1x128 : S20x128.Slices ![10, 0] S1x128
  slices_S64x20_o0_10_S64x1 : S64x20.Slices ![0, 10] S64x1
  slices_S512x20_o0_10_S512x1 : S512x20.Slices ![0, 10] S512x1
  slices_S20x128_o11_0_S1x128 : S20x128.Slices ![11, 0] S1x128
  slices_S64x20_o0_11_S64x1 : S64x20.Slices ![0, 11] S64x1
  slices_S512x20_o0_11_S512x1 : S512x20.Slices ![0, 11] S512x1
  slices_S20x128_o12_0_S1x128 : S20x128.Slices ![12, 0] S1x128
  slices_S64x20_o0_12_S64x1 : S64x20.Slices ![0, 12] S64x1
  slices_S512x20_o0_12_S512x1 : S512x20.Slices ![0, 12] S512x1
  slices_S20x128_o13_0_S1x128 : S20x128.Slices ![13, 0] S1x128
  slices_S64x20_o0_13_S64x1 : S64x20.Slices ![0, 13] S64x1
  slices_S512x20_o0_13_S512x1 : S512x20.Slices ![0, 13] S512x1
  slices_S20x128_o14_0_S1x128 : S20x128.Slices ![14, 0] S1x128
  slices_S64x20_o0_14_S64x1 : S64x20.Slices ![0, 14] S64x1
  slices_S512x20_o0_14_S512x1 : S512x20.Slices ![0, 14] S512x1
  slices_S20x128_o15_0_S1x128 : S20x128.Slices ![15, 0] S1x128
  slices_S64x20_o0_15_S64x1 : S64x20.Slices ![0, 15] S64x1
  slices_S512x20_o0_15_S512x1 : S512x20.Slices ![0, 15] S512x1
  slices_S20x128_o16_0_S1x128 : S20x128.Slices ![16, 0] S1x128
  slices_S64x20_o0_16_S64x1 : S64x20.Slices ![0, 16] S64x1
  slices_S512x20_o0_16_S512x1 : S512x20.Slices ![0, 16] S512x1
  slices_S20x128_o17_0_S1x128 : S20x128.Slices ![17, 0] S1x128
  slices_S64x20_o0_17_S64x1 : S64x20.Slices ![0, 17] S64x1
  slices_S512x20_o0_17_S512x1 : S512x20.Slices ![0, 17] S512x1
  slices_S20x128_o18_0_S1x128 : S20x128.Slices ![18, 0] S1x128
  slices_S64x20_o0_18_S64x1 : S64x20.Slices ![0, 18] S64x1
  slices_S512x20_o0_18_S512x1 : S512x20.Slices ![0, 18] S512x1
  slices_S20x128_o19_0_S1x128 : S20x128.Slices ![19, 0] S1x128
  slices_S64x20_o0_19_S64x1 : S64x20.Slices ![0, 19] S64x1
  slices_S512x20_o0_19_S512x1 : S512x20.Slices ![0, 19] S512x1
  shapeCasts_S64x512_S64x512x1 : S64x512.ShapeCasts S64x512x1
  concatenates_S64x512x1_S64x512x1_S64x512x1_S64x512x1_S64x512x1_S64x512x1_S64x512x1_S64x512x1_S64x512x1_S64x512x1_S64x512x1_S64x512x1_S64x512x1_S64x512x1_S64x512x1_S64x512x1_S64x512x1_S64x512x1_S64x512x1_S64x512x1_S64x512x20_d2 : Shape.Concatenates [S64x512x1, S64x512x1, S64x512x1, S64x512x1, S64x512x1, S64x512x1, S64x512x1, S64x512x1, S64x512x1, S64x512x1, S64x512x1, S64x512x1, S64x512x1, S64x512x1, S64x512x1, S64x512x1, S64x512x1, S64x512x1, S64x512x1, S64x512x1] S64x512x20 2
  inb_S1x64x512x20_S1x64x512x20_0_0_0_0 : ∀ a, (![0, 0, 0, 0] : Fin 4 → Nat) a + S1x64x512x20.size a ≤ S1x64x512x20.size a
  h_S1x64x512x20 : 0 < S1x64x512x20.numel
  shapeCasts_S1x64x512x20_S64x512x20 : S1x64x512x20.ShapeCasts S64x512x20
  shapeCasts_S64x512x20_S1x64x512x20 : S64x512x20.ShapeCasts S1x64x512x20
  dot_S64x128_S20x128_S64x20_1_1_0_0_n_n_wf : DotDims.WF S64x128 S20x128 S64x20 [1] [1] [0] [0] [] []
  dot_S512x128_S20x128_S512x20_1_1_0_0_n_n_wf : DotDims.WF S512x128 S20x128 S512x20 [1] [1] [0] [0] [] []
  dot_S64x128_S512x128_S64x512_1_1_0_0_n_n_wf : DotDims.WF S64x128 S512x128 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S16x512x128.size a
  hwx0_0 : ∀ i : grid0.Coords, EltTy.bits .f32 = 32 ∨ (Rect.block (s := S16x512x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S16x512x128.size a
  hwx0_1 : ∀ i : grid0.Coords, EltTy.bits .f32 = 32 ∨ (Rect.block (s := S16x512x128) S1x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x128.size a ≤ S20x128.size a
  hwx0_2 : ∀ i : grid0.Coords, EltTy.bits .f32 = 32 ∨ (Rect.block (s := S20x128) S20x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512x20.size a ≤ S16x512x512x20.size a
  hwx0_3 : ∀ i : grid0.Coords, EltTy.bits .f32 = 32 ∨ (Rect.block (s := S16x512x512x20) S1x64x512x20.size (cc0_transform_3 i) (hinb0_3 i)).WholeWords (EltTy.packing .f32)

variable [Facts₀]

def dot_S64x128_S20x128_S64x20_1_1_0_0_n_n : DotDims S64x128 S20x128 S64x20 where
  lhsContracting := [1]
  rhsContracting := [1]
  lhsNonContracting := [0]
  rhsNonContracting := [0]
  lhsBatch := []
  rhsBatch := []
  wf := dot_S64x128_S20x128_S64x20_1_1_0_0_n_n_wf
def dot_S512x128_S20x128_S512x20_1_1_0_0_n_n : DotDims S512x128 S20x128 S512x20 where
  lhsContracting := [1]
  rhsContracting := [1]
  lhsNonContracting := [0]
  rhsNonContracting := [0]
  lhsBatch := []
  rhsBatch := []
  wf := dot_S512x128_S20x128_S512x20_1_1_0_0_n_n_wf
def dot_S64x128_S512x128_S64x512_1_1_0_0_n_n : DotDims S64x128 S512x128 S64x512 where
  lhsContracting := [1]
  rhsContracting := [1]
  lhsNonContracting := [0]
  rhsNonContracting := [0]
  lhsBatch := []
  rhsBatch := []
  wf := dot_S64x128_S512x128_S64x512_1_1_0_0_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x512x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x128 : Shape := ⟨3, ![16, 512, 128]⟩
abbrev S20x128 : Shape := ⟨2, ![20, 128]⟩
abbrev S1x20x1x128 : Shape := ⟨4, ![1, 20, 1, 128]⟩
abbrev S16x1x512x128 : Shape := ⟨4, ![16, 1, 512, 128]⟩
abbrev S16x20x512x128 : Shape := ⟨4, ![16, 20, 512, 128]⟩
abbrev S_ : Shape := ⟨0, ![]⟩
abbrev S16x20x512 : Shape := ⟨3, ![16, 20, 512]⟩
abbrev S16x20x512x1 : Shape := ⟨4, ![16, 20, 512, 1]⟩
abbrev S16x20x512x512 : Shape := ⟨4, ![16, 20, 512, 512]⟩
abbrev S16x20x1x512 : Shape := ⟨4, ![16, 20, 1, 512]⟩
abbrev S16x512x512x20 : Shape := ⟨4, ![16, 512, 512, 20]⟩

abbrev nBuf : Space → Nat
  | .hbm => 37
  | .vmem => 0
  | .smem => 0
  | _ => 0

abbrev bufTy : (tb : Table) → Fin (tcTables nBuf tb) → BufTy
  | .hbm, ⟨0, _⟩ => ⟨S16x512x128, .f32⟩
  | .hbm, ⟨1, _⟩ => ⟨S16x512x128, .f32⟩
  | .hbm, ⟨2, _⟩ => ⟨S20x128, .f32⟩
  | .hbm, ⟨3, _⟩ => ⟨S1x20x1x128, .f32⟩
  | .hbm, ⟨4, _⟩ => ⟨S16x1x512x128, .f32⟩
  | .hbm, ⟨5, _⟩ => ⟨S16x20x512x128, .f32⟩
  | .hbm, ⟨6, _⟩ => ⟨S16x20x512x128, .f32⟩
  | .hbm, ⟨7, _⟩ => ⟨S16x20x512x128, .f32⟩
  | .hbm, ⟨8, _⟩ => ⟨S1x20x1x128, .f32⟩
  | .hbm, ⟨9, _⟩ => ⟨S16x1x512x128, .f32⟩
  | .hbm, ⟨10, _⟩ => ⟨S16x20x512x128, .f32⟩
  | .hbm, ⟨11, _⟩ => ⟨S16x20x512x128, .f32⟩
  | .hbm, ⟨12, _⟩ => ⟨S16x20x512x128, .f32⟩
  | .hbm, ⟨13, _⟩ => ⟨S16x20x512x128, .f32⟩
  | .hbm, ⟨14, _⟩ => ⟨S_, .f32⟩
  | .hbm, ⟨15, _⟩ => ⟨S16x20x512, .f32⟩
  | .hbm, ⟨16, _⟩ => ⟨S16x20x512x1, .f32⟩
  | .hbm, ⟨17, _⟩ => ⟨S16x20x512x1, .f32⟩
  | .hbm, ⟨18, _⟩ => ⟨S16x20x512x128, .f32⟩
  | .hbm, ⟨19, _⟩ => ⟨S_, .f32⟩
  | .hbm, ⟨20, _⟩ => ⟨S16x20x512, .f32⟩
  | .hbm, ⟨21, _⟩ => ⟨S16x20x512x1, .f32⟩
  | .hbm, ⟨22, _⟩ => ⟨S16x20x512x1, .f32⟩
  | .hbm, ⟨23, _⟩ => ⟨S16x20x512x512, .f32⟩
  | .hbm, ⟨24, _⟩ => ⟨S16x20x1x512, .f32⟩
  | .hbm, ⟨25, _⟩ => ⟨S16x20x512x512, .f32⟩
  | .hbm, ⟨26, _⟩ => ⟨S16x20x512x512, .f32⟩
  | .hbm, ⟨27, _⟩ => ⟨S16x20x512x512, .f32⟩
  | .hbm, ⟨28, _⟩ => ⟨S_, .f32⟩
  | .hbm, ⟨29, _⟩ => ⟨S16x20x512x512, .f32⟩
  | .hbm, ⟨30, _⟩ => ⟨S16x20x512x512, .i1⟩
  | .hbm, ⟨31, _⟩ => ⟨S_, .f32⟩
  | .hbm, ⟨32, _⟩ => ⟨S_, .f32⟩
  | .hbm, ⟨33, _⟩ => ⟨S16x20x512x512, .f32⟩
  | .hbm, ⟨34, _⟩ => ⟨S16x20x512x512, .f32⟩
  | .hbm, ⟨35, _⟩ => ⟨S16x20x512x512, .f32⟩
  | .hbm, ⟨36, _⟩ => ⟨S16x512x512x20, .f32⟩
  | _, _ => ⟨S16x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_call2_v0 : Ref sig .tc := ⟨.hbm, 32, rfl⟩
abbrev main_call2_v1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S20x128_S1x20x1x128_1_3 : S20x128.BroadcastsInDim S1x20x1x128 (![1, 3] : Fin 2 → Fin S1x20x1x128.rank)
  bcast_S16x512x128_S16x1x512x128_0_2_3 : S16x512x128.BroadcastsInDim S16x1x512x128 (![0, 2, 3] : Fin 3 → Fin S16x1x512x128.rank)
  bcast_S1x20x1x128_S16x20x512x128_0_1_2_3 : S1x20x1x128.BroadcastsInDim S16x20x512x128 (![0, 1, 2, 3] : Fin 4 → Fin S16x20x512x128.rank)
  bcast_S16x1x512x128_S16x20x512x128_0_1_2_3 : S16x1x512x128.BroadcastsInDim S16x20x512x128 (![0, 1, 2, 3] : Fin 4 → Fin S16x20x512x128.rank)
  reducesTo_S16x20x512x128_S16x20x512_d3 : S16x20x512x128.ReducesTo [3] S16x20x512
  h_S_ : 0 < S_.numel
  bcast_S16x20x512_S16x20x512x1_0_1_2 : S16x20x512.BroadcastsInDim S16x20x512x1 (![0, 1, 2] : Fin 3 → Fin S16x20x512x1.rank)
  transposes_S16x20x512x1_S16x20x1x512_0_1_3_2 : S16x20x512x1.Transposes [0, 1, 3, 2] S16x20x1x512
  bcast_S16x20x512x1_S16x20x512x512_0_1_2_3 : S16x20x512x1.BroadcastsInDim S16x20x512x512 (![0, 1, 2, 3] : Fin 4 → Fin S16x20x512x512.rank)
  bcast_S16x20x1x512_S16x20x512x512_0_1_2_3 : S16x20x1x512.BroadcastsInDim S16x20x512x512 (![0, 1, 2, 3] : Fin 4 → Fin S16x20x512x512.rank)
  bcast_S_S16x20x512x512 : S_.BroadcastsInDim S16x20x512x512 (![] : Fin 0 → Fin S16x20x512x512.rank)
  transposes_S16x20x512x512_S16x512x512x20_0_2_3_1 : S16x20x512x512.Transposes [0, 2, 3, 1] S16x512x512x20
  dot_S16x20x512x128_S16x20x512x128_S16x20x512x512_3_3_2_2_01_01_wf : DotDims.WF S16x20x512x128 S16x20x512x128 S16x20x512x512 [3] [3] [2] [2] [0, 1] [0, 1]

variable [Facts₀]

def dot_S16x20x512x128_S16x20x512x128_S16x20x512x512_3_3_2_2_01_01 : DotDims S16x20x512x128 S16x20x512x128 S16x20x512x512 where
  lhsContracting := [3]
  rhsContracting := [3]
  lhsNonContracting := [2]
  rhsNonContracting := [2]
  lhsBatch := [0, 1]
  rhsBatch := [0, 1]
  wf := dot_S16x20x512x128_S16x20x512x128_S16x20x512x512_3_3_2_2_01_01_wf

class Facts : Prop extends Facts₀ where

variable [Facts]
-- ==== Proof.Dots.lean ====
/-
  The kernel's three matrix products read at one output index.

  Every product in the kernel body contracts the LAST axis of both operands (an [M, K] block against an [N, K]
  block): the entry at row p, column q is the sum over k of left(p, k) · right(q, k), accumulated into a zero
  block. On the extended reals the zero accumulator disappears and the contraction index is one coordinate
  k : Fin K.
-/
import proofs.«125987_j34986803593512_2_alg».proof.Proof.Gen.KernelIdeal
import Idealize.ShloMosaic.Lib.ValueIdx
import Idealize.ShloMosaic.PureOps.Ideal.Laws

noncomputable section

namespace Cert.KernelIdeal.Hand

open Cert.KernelIdeal Cert.KernelIdeal.Facts₀ Idealize.ShloMosaic Idealize.ShloMosaic.ValueIdx

/-- A product into the zero block whose dimension numbers contract ONE axis of extent K, at an output index j:
    the sum over k of the operands at whatever indices the dimension numbers send (j, k) to. -/
theorem matmul_zero_sum {sl sr so : Shape} {φ₁ φ₂ : FTy} (D : DotDims sl sr so) (K : Nat) (hr : D.contr.rank = 1)
    (hs : D.contr.size ⟨0, by omega⟩ = K) (prec : Option ContractPrecision)
    (lhs : FVec Ideal sl φ₁) (rhs : FVec Ideal sr φ₂) (j : so.Idx) (li : Fin K → sl.Idx) (ri : Fin K → sr.Idx)
    (hl : ∀ k, D.lhsIdx j ((contrEquiv1 D K hr hs).symm k) = li k)
    (hri : ∀ k, D.rhsIdx j ((contrEquiv1 D K hr hs).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hr hs).symm]
  exact Finset.sum_congr rfl fun k _ => by rw [hl k, hri k]

/-! ## Where the dimension numbers send an output index and a contraction index

The left operand's row is the output's row, the right operand's row is the output's column, and both operands'
second coordinate is the contraction index. -/

theorem dot_S64x128_S512x128_S64x512_1_1_0_0_n_n_lhs0 (j : S64x512.Idx) (q : dot_S64x128_S512x128_S64x512_1_1_0_0_n_n.contr.Idx) : (dot_S64x128_S512x128_S64x512_1_1_0_0_n_n.lhsIdx j q 0).val = (j 0).val := by
  unfold DotDims.lhsIdx
  rw [dif_neg (show ¬(0 : Fin S64x128.rank) ∈ dot_S64x128_S512x128_S64x512_1_1_0_0_n_n.lhsBatch by decide),
    dif_pos (show (0 : Fin S64x128.rank) ∈ dot_S64x128_S512x128_S64x512_1_1_0_0_n_n.lhsNonContracting by decide)]
  rfl
theorem dot_S64x128_S512x128_S64x512_1_1_0_0_n_n_lhs1 (j : S64x512.Idx) (q : dot_S64x128_S512x128_S64x512_1_1_0_0_n_n.contr.Idx) : (dot_S64x128_S512x128_S64x512_1_1_0_0_n_n.lhsIdx j q 1).val = (q ⟨0, by decide⟩).val :=
  dot_S64x128_S512x128_S64x512_1_1_0_0_n_n.lhsIdx_val_of_single rfl j q
theorem dot_S64x128_S512x128_S64x512_1_1_0_0_n_n_rhs0 (j : S64x512.Idx) (q : dot_S64x128_S512x128_S64x512_1_1_0_0_n_n.contr.Idx) : (dot_S64x128_S512x128_S64x512_1_1_0_0_n_n.rhsIdx j q 0).val = (j 1).val := by
  unfold DotDims.rhsIdx
  rw [dif_neg (show ¬(0 : Fin S512x128.rank) ∈ dot_S64x128_S512x128_S64x512_1_1_0_0_n_n.rhsBatch by decide),
    dif_pos (show (0 : Fin S512x128.rank) ∈ dot_S64x128_S512x128_S64x512_1_1_0_0_n_n.rhsNonContracting by decide)]
  rfl
theorem dot_S64x128_S512x128_S64x512_1_1_0_0_n_n_rhs1 (j : S64x512.Idx) (q : dot_S64x128_S512x128_S64x512_1_1_0_0_n_n.contr.Idx) : (dot_S64x128_S512x128_S64x512_1_1_0_0_n_n.rhsIdx j q 1).val = (q ⟨0, by decide⟩).val :=
  dot_S64x128_S512x128_S64x512_1_1_0_0_n_n.rhsIdx_val_of_single rfl j q

theorem dot_S64x128_S20x128_S64x20_1_1_0_0_n_n_lhs0 (j : S64x20.Idx) (q : dot_S64x128_S20x128_S64x20_1_1_0_0_n_n.contr.Idx) : (dot_S64x128_S20x128_S64x20_1_1_0_0_n_n.lhsIdx j q 0).val = (j 0).val := by
  unfold DotDims.lhsIdx
  rw [dif_neg (show ¬(0 : Fin S64x128.rank) ∈ dot_S64x128_S20x128_S64x20_1_1_0_0_n_n.lhsBatch by decide),
    dif_pos (show (0 : Fin S64x128.rank) ∈ dot_S64x128_S20x128_S64x20_1_1_0_0_n_n.lhsNonContracting by decide)]
  rfl
theorem dot_S64x128_S20x128_S64x20_1_1_0_0_n_n_lhs1 (j : S64x20.Idx) (q : dot_S64x128_S20x128_S64x20_1_1_0_0_n_n.contr.Idx) : (dot_S64x128_S20x128_S64x20_1_1_0_0_n_n.lhsIdx j q 1).val = (q ⟨0, by decide⟩).val :=
  dot_S64x128_S20x128_S64x20_1_1_0_0_n_n.lhsIdx_val_of_single rfl j q
theorem dot_S64x128_S20x128_S64x20_1_1_0_0_n_n_rhs0 (j : S64x20.Idx) (q : dot_S64x128_S20x128_S64x20_1_1_0_0_n_n.contr.Idx) : (dot_S64x128_S20x128_S64x20_1_1_0_0_n_n.rhsIdx j q 0).val = (j 1).val := by
  unfold DotDims.rhsIdx
  rw [dif_neg (show ¬(0 : Fin S20x128.rank) ∈ dot_S64x128_S20x128_S64x20_1_1_0_0_n_n.rhsBatch by decide),
    dif_pos (show (0 : Fin S20x128.rank) ∈ dot_S64x128_S20x128_S64x20_1_1_0_0_n_n.rhsNonContracting by decide)]
  rfl
theorem dot_S64x128_S20x128_S64x20_1_1_0_0_n_n_rhs1 (j : S64x20.Idx) (q : dot_S64x128_S20x128_S64x20_1_1_0_0_n_n.contr.Idx) : (dot_S64x128_S20x128_S64x20_1_1_0_0_n_n.rhsIdx j q 1).val = (q ⟨0, by decide⟩).val :=
  dot_S64x128_S20x128_S64x20_1_1_0_0_n_n.rhsIdx_val_of_single rfl j q

theorem dot_S512x128_S20x128_S512x20_1_1_0_0_n_n_lhs0 (j : S512x20.Idx) (q : dot_S512x128_S20x128_S512x20_1_1_0_0_n_n.contr.Idx) : (dot_S512x128_S20x128_S512x20_1_1_0_0_n_n.lhsIdx j q 0).val = (j 0).val := by
  unfold DotDims.lhsIdx
  rw [dif_neg (show ¬(0 : Fin S512x128.rank) ∈ dot_S512x128_S20x128_S512x20_1_1_0_0_n_n.lhsBatch by decide),
    dif_pos (show (0 : Fin S512x128.rank) ∈ dot_S512x128_S20x128_S512x20_1_1_0_0_n_n.lhsNonContracting by decide)]
  rfl
theorem dot_S512x128_S20x128_S512x20_1_1_0_0_n_n_lhs1 (j : S512x20.Idx) (q : dot_S512x128_S20x128_S512x20_1_1_0_0_n_n.contr.Idx) : (dot_S512x128_S20x128_S512x20_1_1_0_0_n_n.lhsIdx j q 1).val = (q ⟨0, by decide⟩).val :=
  dot_S512x128_S20x128_S512x20_1_1_0_0_n_n.lhsIdx_val_of_single rfl j q
theorem dot_S512x128_S20x128_S512x20_1_1_0_0_n_n_rhs0 (j : S512x20.Idx) (q : dot_S512x128_S20x128_S512x20_1_1_0_0_n_n.contr.Idx) : (dot_S512x128_S20x128_S512x20_1_1_0_0_n_n.rhsIdx j q 0).val = (j 1).val := by
  unfold DotDims.rhsIdx
  rw [dif_neg (show ¬(0 : Fin S20x128.rank) ∈ dot_S512x128_S20x128_S512x20_1_1_0_0_n_n.rhsBatch by decide),
    dif_pos (show (0 : Fin S20x128.rank) ∈ dot_S512x128_S20x128_S512x20_1_1_0_0_n_n.rhsNonContracting by decide)]
  rfl
theorem dot_S512x128_S20x128_S512x20_1_1_0_0_n_n_rhs1 (j : S512x20.Idx) (q : dot_S512x128_S20x128_S512x20_1_1_0_0_n_n.contr.Idx) : (dot_S512x128_S20x128_S512x20_1_1_0_0_n_n.rhsIdx j q 1).val = (q ⟨0, by decide⟩).val :=
  dot_S512x128_S20x128_S512x20_1_1_0_0_n_n.rhsIdx_val_of_single rfl j q

/-! ## The three products -/

/-- [64, 128] against [512, 128]: entry (p, q) is the sum over k of a(p, k) · b(q, k). -/
theorem dot_rows_cols (a : FVec Ideal S64x128 .f32) (b : FVec Ideal S512x128 .f32) (p : Fin 64) (q : Fin 512) :
    FloatOps.matmul dot_S64x128_S512x128_S64x512_1_1_0_0_n_n none a b (constant S64x512 .f32 0x00000000#32) (ix2 p q)
      = ∑ k : Fin 128, a (ix2 p k) * b (ix2 q k) := by
  refine matmul_zero_sum dot_S64x128_S512x128_S64x512_1_1_0_0_n_n 128 rfl rfl none a b _ _ _ (fun k => ?_) (fun k => ?_)
  · have hk := contrEquiv1_symm_val dot_S64x128_S512x128_S64x512_1_1_0_0_n_n 128 rfl rfl k
    funext x; apply Fin.ext
    match x with
    | ⟨0, _⟩ => exact dot_S64x128_S512x128_S64x512_1_1_0_0_n_n_lhs0 _ _
    | ⟨1, _⟩ => exact (dot_S64x128_S512x128_S64x512_1_1_0_0_n_n_lhs1 _ _).trans hk
  · have hk := contrEquiv1_symm_val dot_S64x128_S512x128_S64x512_1_1_0_0_n_n 128 rfl rfl k
    funext x; apply Fin.ext
    match x with
    | ⟨0, _⟩ => exact dot_S64x128_S512x128_S64x512_1_1_0_0_n_n_rhs0 _ _
    | ⟨1, _⟩ => exact (dot_S64x128_S512x128_S64x512_1_1_0_0_n_n_rhs1 _ _).trans hk

/-- [64, 128] against [20, 128]: entry (p, l) is the sum over k of a(p, k) · b(l, k). -/
theorem dot_rows_lanes (a : FVec Ideal S64x128 .f32) (b : FVec Ideal S20x128 .f32) (p : Fin 64) (l : Fin 20) :
    FloatOps.matmul dot_S64x128_S20x128_S64x20_1_1_0_0_n_n none a b (constant S64x20 .f32 0x00000000#32) (ix2 p l)
      = ∑ k : Fin 128, a (ix2 p k) * b (ix2 l k) := by
  refine matmul_zero_sum dot_S64x128_S20x128_S64x20_1_1_0_0_n_n 128 rfl rfl none a b _ _ _ (fun k => ?_) (fun k => ?_)
  · have hk := contrEquiv1_symm_val dot_S64x128_S20x128_S64x20_1_1_0_0_n_n 128 rfl rfl k
    funext x; apply Fin.ext
    match x with
    | ⟨0, _⟩ => exact dot_S64x128_S20x128_S64x20_1_1_0_0_n_n_lhs0 _ _
    | ⟨1, _⟩ => exact (dot_S64x128_S20x128_S64x20_1_1_0_0_n_n_lhs1 _ _).trans hk
  · have hk := contrEquiv1_symm_val dot_S64x128_S20x128_S64x20_1_1_0_0_n_n 128 rfl rfl k
    funext x; apply Fin.ext
    match x with
    | ⟨0, _⟩ => exact dot_S64x128_S20x128_S64x20_1_1_0_0_n_n_rhs0 _ _
    | ⟨1, _⟩ => exact (dot_S64x128_S20x128_S64x20_1_1_0_0_n_n_rhs1 _ _).trans hk

/-- [512, 128] against [20, 128]: entry (q, l) is the sum over k of a(q, k) · b(l, k). -/
theorem dot_cols_lanes (a : FVec Ideal S512x128 .f32) (b : FVec Ideal S20x128 .f32) (q : Fin 512) (l : Fin 20) :
    FloatOps.matmul dot_S512x128_S20x128_S512x20_1_1_0_0_n_n none a b (constant S512x20 .f32 0x00000000#32) (ix2 q l)
      = ∑ k : Fin 128, a (ix2 q k) * b (ix2 l k) := by
  refine matmul_zero_sum dot_S512x128_S20x128_S512x20_1_1_0_0_n_n 128 rfl rfl none a b _ _ _ (fun k => ?_) (fun k => ?_)
  · have hk := contrEquiv1_symm_val dot_S512x128_S20x128_S512x20_1_1_0_0_n_n 128 rfl rfl k
    funext x; apply Fin.ext
    match x with
    | ⟨0, _⟩ => exact dot_S512x128_S20x128_S512x20_1_1_0_0_n_n_lhs0 _ _
    | ⟨1, _⟩ => exact (dot_S512x128_S20x128_S512x20_1_1_0_0_n_n_lhs1 _ _).trans hk
  · have hk := contrEquiv1_symm_val dot_S512x128_S20x128_S512x20_1_1_0_0_n_n 128 rfl rfl k
    funext x; apply Fin.ext
    match x with
    | ⟨0, _⟩ => exact dot_S512x128_S20x128_S512x20_1_1_0_0_n_n_rhs0 _ _
    | ⟨1, _⟩ => exact (dot_S512x128_S20x128_S512x20_1_1_0_0_n_n_rhs1 _ _).trans hk

end Cert.KernelIdeal.Hand

end
-- ==== Proof.LibRows.lean ====
/-
  Reading the keep-dims layout operations of a row-wise kernel at an index, for any extents m (rows) and n (lanes):

  * a [1, n] row broadcast down m rows reads, at (p, q), the row at (0, q);
  * an [m, 1] column broadcast across n lanes reads, at (p, q), the column at (p, 0);
  * an [m] vector cast to an [m, 1] column reads, at (p, 0), the vector at p;
  * the lane sum of an [m, n] block (a sum over axis 1 started from the zero word) reads, at p, the sum over the
    n lanes of row p.
-/
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {α : Type}

/-- A [1, n] row broadcast down m rows, at (p, q): the row's entry q. -/
theorem broadcastTo_row_apply {m n : Nat} (hn : n ≠ 1) (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 (0 : Fin 1) q) :=
  broadcastTo_apply x h (ix2 p q) (ix2 (0 : Fin 1) q) (fun a => match a with
    | ⟨0, _⟩ => by show (0 : Nat) = if (1 : Nat) = 1 then 0 else p.val; rw [if_pos rfl]
    | ⟨1, _⟩ => by show q.val = if n = 1 then 0 else q.val; rw [if_neg hn])

/-- An [m, 1] column broadcast across n lanes, at (p, q): the column's entry p. -/
theorem broadcastTo_col_apply {m n : Nat} (hm : m ≠ 1) (x : (⟨2, ![m, 1]⟩ : Shape).Idx → α)
    (h : (⟨2, ![m, 1]⟩ : Shape).Broadcasts ⟨2, ![m, n]⟩) (p : Fin m) (q : Fin n) :
    broadcastTo ⟨2, ![m, n]⟩ x h (ix2 p q) = x (ix2 p (0 : Fin 1)) :=
  broadcastTo_apply x h (ix2 p q) (ix2 p (0 : Fin 1)) (fun a => match a with
    | ⟨0, _⟩ => by show p.val = if m = 1 then 0 else p.val; rw [if_neg hm]
    | ⟨1, _⟩ => by show (0 : Nat) = if (1 : Nat) = 1 then 0 else q.val; rw [if_pos rfl])

/-- An [m] vector cast to an [m, 1] column, at (p, u): the vector's entry p. -/
theorem shapeCast_col_apply {m : Nat} (x : (⟨1, ![m]⟩ : Shape).Idx → α)
    (h : (⟨1, ![m]⟩ : Shape).ShapeCasts ⟨2, ![m, 1]⟩) (p : Fin m) (u : Fin 1) :
    shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The lane sum of an [m, n] block started from the zero word, at p: the sum of row p's n entries. -/
theorem laneSum_apply {m n : Nat} (v : FVec Ideal (⟨2, ![m, n]⟩ : Shape) .f32)
    (h : (⟨2, ![m, n]⟩ : Shape).Reduces [(1 : Fin 2)] ⟨1, ![m]⟩) (hφ : FTy.f32 = FTy.f32 ∨ FTy.f32 = FTy.bf16)
    (hacc : (0x00000000#32 : BitVec FTy.f32.bits) = 0x00000000#32) (p : Fin m) :
    multiReduction .add [(1 : Fin 2)] ⟨1, ![m]⟩ v 0x00000000#32 h hφ hacc (ix1 p) = ∑ k : Fin n, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

end Cert.LibRows

end
-- ==== Proof.Lane.lean ====
/-
  One lane of the kernel's output tile, as a function of the five blocks every lane shares.

  The kernel body computes, for each of its 20 lanes l, the same expression of
    v1  : the [64, 128] block of the first argument,
    v3  : the [512, 128] block of the second argument,
    v5  : the [20, 128] block of squared weights,
    v10 : the [64, 20] block of the first argument's weighted norms,
    v11 : the [512, 20] block of the second argument's weighted norms,
  namely  (v1 · row l of v5) contracted with v3 over the last axis, divided by the product of column l of v10 with
  column l of v11, the product replaced by the small constant wherever it does not exceed it.
  Read at row p and column q this is
      (Σ_k v1(p,k) · v5(l,k) · v3(q,k)) / (if v10(p,l)·v11(q,l) > ε then v10(p,l)·v11(q,l) else ε).
-/
import proofs.«125987_j34986803593512_2_alg».proof.Proof.Dots
import proofs.«125987_j34986803593512_2_alg».proof.Proof.LibRows
import Idealize.ShloMosaic.Lib.Pipeline.Value

noncomputable section

namespace Cert.KernelIdeal.Hand

open Cert.KernelIdeal Cert.KernelIdeal.Facts₀ Idealize.ShloMosaic Idealize.ShloMosaic.ValueIdx

variable {F : FTy → Type} [FloatOps F]

/-- The denominator block of one lane: column `o10` of the two norm blocks, the first broadcast across the 512
    columns and the second, transposed to a row, broadcast down the 64 rows, multiplied. -/
def laneDen (o10 : Fin 2 → Nat) (h10 : S64x20.Slices o10 S64x1) (h11 : S512x20.Slices o10 S512x1)
    (v10 : FVec F S64x20 .f32) (v11 : FVec F S512x20 .f32) : FVec F S64x512 .f32 :=
  mulf (broadcastTo S64x512 (extractStridedSlice S64x1 o10 v10 h10) broadcasts_S64x1_S64x512)
    (broadcastTo S64x512 (transpose S1x512 [1, 0] (extractStridedSlice S512x1 o10 v11 h11) transposes_S512x1_p1_0_S1x512)
      broadcasts_S1x512_S64x512)

/-- The numerator block of one lane: the first block weighted by row `o5` of the squared weights, contracted with
    the second block over the last axis. -/
def laneNum (o5 : Fin 2 → Nat) (h5 : S20x128.Slices o5 S1x128)
    (v1 : FVec F S64x128 .f32) (v3 : FVec F S512x128 .f32) (v5 : FVec F S20x128 .f32) : FVec F S64x512 .f32 :=
  matmul dot_S64x128_S512x128_S64x512_1_1_0_0_n_n none
    (mulf v1 (broadcastTo S64x128 (extractStridedSlice S1x128 o5 v5 h5) broadcasts_S1x128_S64x128)) v3
    (constant S64x512 .f32 0x00000000#32)

/-- The quotient of a numerator block by a denominator block, the denominator replaced by the small constant
    wherever it does not exceed `eps` (the body compares against one copy of the constant and substitutes another;
    every lane passes the same word for both). -/
def guardedQuot (num den : FVec F S64x512 .f32) (eps : F .f32) : FVec F S64x512 .f32 :=
  divf num (select (cmpf .ogt den (broadcast S64x512 eps)) den (broadcast S64x512 (Scalar.ofBits .f32 0x322BCC77#32)))

/-- One lane of the output tile. -/
def lane (o5 o10 : Fin 2 → Nat) (h5 : S20x128.Slices o5 S1x128) (h10 : S64x20.Slices o10 S64x1)
    (h11 : S512x20.Slices o10 S512x1) (v1 : FVec F S64x128 .f32) (v3 : FVec F S512x128 .f32)
    (v5 : FVec F S20x128 .f32) (v10 : FVec F S64x20 .f32) (v11 : FVec F S512x20 .f32) : FVec F S64x512 .f32 :=
  guardedQuot (laneNum o5 h5 v1 v3 v5) (laneDen o10 h10 h11 v10 v11) (Scalar.ofBits .f32 0x322BCC77#32)

/-! ## The pieces read at row p, column q, on the extended reals -/

/-- The denominator at (p, q): the two norms of lane l multiplied. -/
theorem laneDen_apply (l : Nat) (hl : l < 20) (h10 : S64x20.Slices ![0, l] S64x1) (h11 : S512x20.Slices ![0, l] S512x1)
    (v10 : FVec Ideal S64x20 .f32) (v11 : FVec Ideal S512x20 .f32) (p : Fin 64) (q : Fin 512) :
    laneDen ![0, l] h10 h11 v10 v11 (ix2 p q) = v10 (ix2 p ⟨l, hl⟩) * v11 (ix2 q ⟨l, hl⟩) := by
  unfold laneDen
  rw [mulf_apply, Cert.LibRows.broadcastTo_col_apply (by decide), Cert.LibRows.broadcastTo_row_apply (by decide)]
  rw [transpose_apply [1, 0] _ transposes_S512x1_p1_0_S1x512 (ix2 (0 : Fin 1) q) (ix2 q (0 : Fin 1))
    (fun b => match b with | ⟨0, _⟩ => rfl | ⟨1, _⟩ => rfl)]
  rw [extractStridedSlice_apply ![0, l] v10 h10 (ix2 p (0 : Fin 1)) (ix2 p ⟨l, hl⟩)
    (fun a => match a with
      | ⟨0, _⟩ => by show p.val = 0 + p.val; omega
      | ⟨1, _⟩ => by show l = l + 0; omega)]
  rw [extractStridedSlice_apply ![0, l] v11 h11 (ix2 q (0 : Fin 1)) (ix2 q ⟨l, hl⟩)
    (fun a => match a with
      | ⟨0, _⟩ => by show q.val = 0 + q.val; omega
      | ⟨1, _⟩ => by show l = l + 0; omega)]

/-- The numerator at (p, q): the sum over k of v1(p,k) · v5(l,k) · v3(q,k). -/
theorem laneNum_apply (l : Nat) (hl : l < 20) (h5 : S20x128.Slices ![l, 0] S1x128)
    (v1 : FVec Ideal S64x128 .f32) (v3 : FVec Ideal S512x128 .f32) (v5 : FVec Ideal S20x128 .f32)
    (p : Fin 64) (q : Fin 512) :
    laneNum ![l, 0] h5 v1 v3 v5 (ix2 p q) = ∑ k : Fin 128, (v1 (ix2 p k) * v5 (ix2 ⟨l, hl⟩ k)) * v3 (ix2 q k) := by
  unfold laneNum
  refine (dot_rows_cols _ _ p q).trans (Finset.sum_congr rfl fun k _ => ?_)
  rw [mulf_apply, Cert.LibRows.broadcastTo_row_apply (by decide)]
  rw [extractStridedSlice_apply ![l, 0] v5 h5 (ix2 (0 : Fin 1) k) (ix2 ⟨l, hl⟩ k)
    (fun a => match a with
      | ⟨0, _⟩ => by show l = l + 0; omega
      | ⟨1, _⟩ => by show k.val = 0 + k.val; omega)]

/-- The guarded quotient at an index. -/
theorem guardedQuot_apply (num den : FVec Ideal S64x512 .f32) (eps : Ideal .f32) (j : S64x512.Idx) :
    guardedQuot num den eps j
      = Ideal.div (num j) (Scalar.select (FloatOps.cmpf .ogt (den j) eps) (den j) (Scalar.ofBits (F := Ideal) .f32 0x322BCC77#32)) := rfl

/-- What lane l holds at row p, column q, from the five shared blocks. -/
def laneVal (v1 : FVec Ideal S64x128 .f32) (v3 : FVec Ideal S512x128 .f32) (v5 : FVec Ideal S20x128 .f32)
    (v10 : FVec Ideal S64x20 .f32) (v11 : FVec Ideal S512x20 .f32) (p : Fin 64) (q : Fin 512) (l : Fin 20) : EReal :=
  Ideal.div (∑ k : Fin 128, (v1 (ix2 p k) * v5 (ix2 l k)) * v3 (ix2 q k))
    (Scalar.select (FloatOps.cmpf .ogt (v10 (ix2 p l) * v11 (ix2 q l)) (Scalar.ofBits (F := Ideal) .f32 0x322BCC77#32)) (v10 (ix2 p l) * v11 (ix2 q l)) (Scalar.ofBits (F := Ideal) .f32 0x322BCC77#32))

/-- One lane at (p, q). -/
theorem lane_apply (l : Nat) (hl : l < 20) (h5 : S20x128.Slices ![l, 0] S1x128) (h10 : S64x20.Slices ![0, l] S64x1)
    (h11 : S512x20.Slices ![0, l] S512x1) (v1 : FVec Ideal S64x128 .f32) (v3 : FVec Ideal S512x128 .f32)
    (v5 : FVec Ideal S20x128 .f32) (v10 : FVec Ideal S64x20 .f32) (v11 : FVec Ideal S512x20 .f32)
    (p : Fin 64) (q : Fin 512) :
    lane ![l, 0] ![0, l] h5 h10 h11 v1 v3 v5 v10 v11 (ix2 p q) = laneVal v1 v3 v5 v10 v11 p q ⟨l, hl⟩ := by
  unfold lane laneVal
  rw [guardedQuot_apply, laneNum_apply l hl, laneDen_apply l hl]

end Cert.KernelIdeal.Hand

end
-- ==== Proof.Stack.lean ====
/-
  Twenty [64, 512] blocks stacked along a new last axis.

  The kernel body gives each of its 20 lane blocks a trailing unit axis and concatenates them along it into one
  [64, 512, 20] tile. Entry (p, q, l) of the tile is entry (p, q) of block l: the axis coordinate l is the number of
  unit-thick slabs before slab l, and inside a slab the trailing coordinate is 0.
-/
import proofs.«125987_j34986803593512_2_alg».proof.Proof.Gen.KernelIdeal
import Idealize.ShloMosaic.Lib.ValueIdx
import Idealize.ShloMosaic.Lib.Pipeline.Value

noncomputable section

namespace Cert.KernelIdeal.Hand

open Cert.KernelIdeal Idealize.ShloMosaic Idealize.ShloMosaic.ValueIdx

variable {α : Type}

/-- A concatenation of slabs that all have one shape, of extent ONE along the axis, read at an index whose axis
    coordinate is k: slab k, at the index with the same coordinates off the axis. (The extents before slab k are k
    ones, so they sum to k.) -/
theorem concat_units_apply {t s₁ : Shape} (a : Fin t.rank) (xs : List ((s : Shape) × (s.Idx → α)))
    (h : Shape.Concatenates (xs.map (·.1)) t a) (hr : s₁.rank = t.rank) (h1 : s₁.size (a.cast hr.symm) = 1)
    (hall : xs.map (·.1) = List.replicate xs.length s₁) (j : t.Idx) (k : Nat) (hk : k < xs.length)
    (x₁ : s₁.Idx → α) (hxk : xs[k] = ⟨s₁, x₁⟩) (hj : (j a).val = k) (i : s₁.Idx)
    (hi : ∀ b : Fin s₁.rank, b.cast hr ≠ a → (i b).val = (j (b.cast hr)).val) :
    concatenate t a xs h j = x₁ i := by
  have h0 : (i (a.cast hr.symm)).val = 0 := by have := (i (a.cast hr.symm)).isLt; omega
  refine concatenate_apply_piece a xs h j k hk s₁ x₁ hxk hr k ?_ i hi (by rw [h0, hj]; rfl)
  rw [List.map_take, hall, List.take_replicate, List.map_replicate, dif_pos hr, h1, List.sum_replicate,
    Nat.min_eq_left (Nat.le_of_lt hk)]
  simp

/-- A [64, 512] block given a trailing unit axis, at (p, q, 0): the block at (p, q) — the two indices have the same
    row-major position. -/
theorem slab_apply (hc : S64x512.ShapeCasts S64x512x1) (a : S64x512.Idx → α) (p : Fin 64) (q : Fin 512) :
    shapeCast S64x512x1 a hc (ix3 p q (0 : Fin 1)) = a (ix2 p q) :=
  shapeCast_apply a hc _ _ (by
    rw [Shape.rowMajor_val_two, Shape.rowMajor_val_three]
    show p.val * 512 + q.val = (p.val * 512 + q.val) * 1 + 0
    omega)

/-- Select one of twenty. -/
def pick20 {β : Type} (b0 b1 b2 b3 b4 b5 b6 b7 b8 b9 b10 b11 b12 b13 b14 b15 b16 b17 b18 b19 : β) : Fin 20 → β
  | ⟨0, _⟩ => b0 | ⟨1, _⟩ => b1 | ⟨2, _⟩ => b2 | ⟨3, _⟩ => b3 | ⟨4, _⟩ => b4 | ⟨5, _⟩ => b5 | ⟨6, _⟩ => b6
  | ⟨7, _⟩ => b7 | ⟨8, _⟩ => b8 | ⟨9, _⟩ => b9 | ⟨10, _⟩ => b10 | ⟨11, _⟩ => b11 | ⟨12, _⟩ => b12 | ⟨13, _⟩ => b13
  | ⟨14, _⟩ => b14 | ⟨15, _⟩ => b15 | ⟨16, _⟩ => b16 | ⟨17, _⟩ => b17 | ⟨18, _⟩ => b18 | ⟨19, _⟩ => b19
  | ⟨n + 20, h⟩ => absurd h (by omega)

/-- The stacked tile at (p, q, l) is block l at (p, q). -/
theorem stack20_apply (hc : S64x512.ShapeCasts S64x512x1)
    (a0 a1 a2 a3 a4 a5 a6 a7 a8 a9 a10 a11 a12 a13 a14 a15 a16 a17 a18 a19 : S64x512.Idx → α)
    (hcat : Shape.Concatenates (([⟨S64x512x1, shapeCast S64x512x1 a0 hc⟩, ⟨S64x512x1, shapeCast S64x512x1 a1 hc⟩, ⟨S64x512x1, shapeCast S64x512x1 a2 hc⟩, ⟨S64x512x1, shapeCast S64x512x1 a3 hc⟩, ⟨S64x512x1, shapeCast S64x512x1 a4 hc⟩, ⟨S64x512x1, shapeCast S64x512x1 a5 hc⟩, ⟨S64x512x1, shapeCast S64x512x1 a6 hc⟩, ⟨S64x512x1, shapeCast S64x512x1 a7 hc⟩, ⟨S64x512x1, shapeCast S64x512x1 a8 hc⟩, ⟨S64x512x1, shapeCast S64x512x1 a9 hc⟩, ⟨S64x512x1, shapeCast S64x512x1 a10 hc⟩, ⟨S64x512x1, shapeCast S64x512x1 a11 hc⟩, ⟨S64x512x1, shapeCast S64x512x1 a12 hc⟩, ⟨S64x512x1, shapeCast S64x512x1 a13 hc⟩, ⟨S64x512x1, shapeCast S64x512x1 a14 hc⟩, ⟨S64x512x1, shapeCast S64x512x1 a15 hc⟩, ⟨S64x512x1, shapeCast S64x512x1 a16 hc⟩, ⟨S64x512x1, shapeCast S64x512x1 a17 hc⟩, ⟨S64x512x1, shapeCast S64x512x1 a18 hc⟩, ⟨S64x512x1, shapeCast S64x512x1 a19 hc⟩] :
      List ((s : Shape) × (s.Idx → α))).map (·.1)) S64x512x20 2)
    (p : Fin 64) (q : Fin 512) (l : Fin 20) :
    concatenate S64x512x20 2 [⟨S64x512x1, shapeCast S64x512x1 a0 hc⟩, ⟨S64x512x1, shapeCast S64x512x1 a1 hc⟩, ⟨S64x512x1, shapeCast S64x512x1 a2 hc⟩, ⟨S64x512x1, shapeCast S64x512x1 a3 hc⟩, ⟨S64x512x1, shapeCast S64x512x1 a4 hc⟩, ⟨S64x512x1, shapeCast S64x512x1 a5 hc⟩, ⟨S64x512x1, shapeCast S64x512x1 a6 hc⟩, ⟨S64x512x1, shapeCast S64x512x1 a7 hc⟩, ⟨S64x512x1, shapeCast S64x512x1 a8 hc⟩, ⟨S64x512x1, shapeCast S64x512x1 a9 hc⟩, ⟨S64x512x1, shapeCast S64x512x1 a10 hc⟩, ⟨S64x512x1, shapeCast S64x512x1 a11 hc⟩, ⟨S64x512x1, shapeCast S64x512x1 a12 hc⟩, ⟨S64x512x1, shapeCast S64x512x1 a13 hc⟩, ⟨S64x512x1, shapeCast S64x512x1 a14 hc⟩, ⟨S64x512x1, shapeCast S64x512x1 a15 hc⟩, ⟨S64x512x1, shapeCast S64x512x1 a16 hc⟩, ⟨S64x512x1, shapeCast S64x512x1 a17 hc⟩, ⟨S64x512x1, shapeCast S64x512x1 a18 hc⟩, ⟨S64x512x1, shapeCast S64x512x1 a19 hc⟩] hcat (ix3 p q l)
      = pick20 a0 a1 a2 a3 a4 a5 a6 a7 a8 a9 a10 a11 a12 a13 a14 a15 a16 a17 a18 a19 l (ix2 p q) := by
  have hoff : ∀ (l' : Fin 20) (b : Fin S64x512x1.rank), b.cast (rfl : S64x512x1.rank = S64x512x20.rank) ≠ (2 : Fin S64x512x20.rank) →
      ((ix3 p q (0 : Fin 1) : S64x512x1.Idx) b).val = ((ix3 p q l' : S64x512x20.Idx) (b.cast rfl)).val := fun l' b hb =>
    match b, hb with
    | ⟨0, _⟩, _ => rfl
    | ⟨1, _⟩, _ => rfl
    | ⟨2, _⟩, hb => absurd rfl hb
  match l with
  | ⟨0, _⟩ => exact (concat_units_apply (s₁ := S64x512x1) 2 _ hcat rfl rfl rfl _ 0 (by show (0 : Nat) < 20; omega) _ rfl rfl (ix3 p q (0 : Fin 1)) (hoff _)).trans (slab_apply hc a0 p q)
  | ⟨1, _⟩ => exact (concat_units_apply (s₁ := S64x512x1) 2 _ hcat rfl rfl rfl _ 1 (by show (1 : Nat) < 20; omega) _ rfl rfl (ix3 p q (0 : Fin 1)) (hoff _)).trans (slab_apply hc a1 p q)
  | ⟨2, _⟩ => exact (concat_units_apply (s₁ := S64x512x1) 2 _ hcat rfl rfl rfl _ 2 (by show (2 : Nat) < 20; omega) _ rfl rfl (ix3 p q (0 : Fin 1)) (hoff _)).trans (slab_apply hc a2 p q)
  | ⟨3, _⟩ => exact (concat_units_apply (s₁ := S64x512x1) 2 _ hcat rfl rfl rfl _ 3 (by show (3 : Nat) < 20; omega) _ rfl rfl (ix3 p q (0 : Fin 1)) (hoff _)).trans (slab_apply hc a3 p q)
  | ⟨4, _⟩ => exact (concat_units_apply (s₁ := S64x512x1) 2 _ hcat rfl rfl rfl _ 4 (by show (4 : Nat) < 20; omega) _ rfl rfl (ix3 p q (0 : Fin 1)) (hoff _)).trans (slab_apply hc a4 p q)
  | ⟨5, _⟩ => exact (concat_units_apply (s₁ := S64x512x1) 2 _ hcat rfl rfl rfl _ 5 (by show (5 : Nat) < 20; omega) _ rfl rfl (ix3 p q (0 : Fin 1)) (hoff _)).trans (slab_apply hc a5 p q)
  | ⟨6, _⟩ => exact (concat_units_apply (s₁ := S64x512x1) 2 _ hcat rfl rfl rfl _ 6 (by show (6 : Nat) < 20; omega) _ rfl rfl (ix3 p q (0 : Fin 1)) (hoff _)).trans (slab_apply hc a6 p q)
  | ⟨7, _⟩ => exact (concat_units_apply (s₁ := S64x512x1) 2 _ hcat rfl rfl rfl _ 7 (by show (7 : Nat) < 20; omega) _ rfl rfl (ix3 p q (0 : Fin 1)) (hoff _)).trans (slab_apply hc a7 p q)
  | ⟨8, _⟩ => exact (concat_units_apply (s₁ := S64x512x1) 2 _ hcat rfl rfl rfl _ 8 (by show (8 : Nat) < 20; omega) _ rfl rfl (ix3 p q (0 : Fin 1)) (hoff _)).trans (slab_apply hc a8 p q)
  | ⟨9, _⟩ => exact (concat_units_apply (s₁ := S64x512x1) 2 _ hcat rfl rfl rfl _ 9 (by show (9 : Nat) < 20; omega) _ rfl rfl (ix3 p q (0 : Fin 1)) (hoff _)).trans (slab_apply hc a9 p q)
  | ⟨10, _⟩ => exact (concat_units_apply (s₁ := S64x512x1) 2 _ hcat rfl rfl rfl _ 10 (by show (10 : Nat) < 20; omega) _ rfl rfl (ix3 p q (0 : Fin 1)) (hoff _)).trans (slab_apply hc a10 p q)
  | ⟨11, _⟩ => exact (concat_units_apply (s₁ := S64x512x1) 2 _ hcat rfl rfl rfl _ 11 (by show (11 : Nat) < 20; omega) _ rfl rfl (ix3 p q (0 : Fin 1)) (hoff _)).trans (slab_apply hc a11 p q)
  | ⟨12, _⟩ => exact (concat_units_apply (s₁ := S64x512x1) 2 _ hcat rfl rfl rfl _ 12 (by show (12 : Nat) < 20; omega) _ rfl rfl (ix3 p q (0 : Fin 1)) (hoff _)).trans (slab_apply hc a12 p q)
  | ⟨13, _⟩ => exact (concat_units_apply (s₁ := S64x512x1) 2 _ hcat rfl rfl rfl _ 13 (by show (13 : Nat) < 20; omega) _ rfl rfl (ix3 p q (0 : Fin 1)) (hoff _)).trans (slab_apply hc a13 p q)
  | ⟨14, _⟩ => exact (concat_units_apply (s₁ := S64x512x1) 2 _ hcat rfl rfl rfl _ 14 (by show (14 : Nat) < 20; omega) _ rfl rfl (ix3 p q (0 : Fin 1)) (hoff _)).trans (slab_apply hc a14 p q)
  | ⟨15, _⟩ => exact (concat_units_apply (s₁ := S64x512x1) 2 _ hcat rfl rfl rfl _ 15 (by show (15 : Nat) < 20; omega) _ rfl rfl (ix3 p q (0 : Fin 1)) (hoff _)).trans (slab_apply hc a15 p q)
  | ⟨16, _⟩ => exact (concat_units_apply (s₁ := S64x512x1) 2 _ hcat rfl rfl rfl _ 16 (by show (16 : Nat) < 20; omega) _ rfl rfl (ix3 p q (0 : Fin 1)) (hoff _)).trans (slab_apply hc a16 p q)
  | ⟨17, _⟩ => exact (concat_units_apply (s₁ := S64x512x1) 2 _ hcat rfl rfl rfl _ 17 (by show (17 : Nat) < 20; omega) _ rfl rfl (ix3 p q (0 : Fin 1)) (hoff _)).trans (slab_apply hc a17 p q)
  | ⟨18, _⟩ => exact (concat_units_apply (s₁ := S64x512x1) 2 _ hcat rfl rfl rfl _ 18 (by show (18 : Nat) < 20; omega) _ rfl rfl (ix3 p q (0 : Fin 1)) (hoff _)).trans (slab_apply hc a18 p q)
  | ⟨19, _⟩ => exact (concat_units_apply (s₁ := S64x512x1) 2 _ hcat rfl rfl rfl _ 19 (by show (19 : Nat) < 20; omega) _ rfl rfl (ix3 p q (0 : Fin 1)) (hoff _)).trans (slab_apply hc a19 p q)
  | ⟨n + 20, h⟩ => exact absurd h (by omega)

end Cert.KernelIdeal.Hand

end
-- ==== Proof.Tile.lean ====
/-
  The tile one grid point stores, read at an index.

  The body stores ONE [1, 64, 512, 20] tile: the 20 lane blocks stacked along the last axis, under a leading unit
  axis. Every lane block is the same expression (Lane.lean) of five blocks computed once from the three loaded
  blocks x0 (rows of the first argument), x1 (rows of the second argument) and x2 (the weights):
    the two loaded row blocks without their leading unit axis, the squared weights, and the two blocks of
    weighted norms (each a square root of a product contracted over the last axis).
  So the tile at (u, p, q, l) is lane l's value at (p, q), and that value is spelt out in terms of x0, x1, x2.
-/
import proofs.«125987_j34986803593512_2_alg».proof.Proof.Gen.KernelIdeal.Frame
import proofs.«125987_j34986803593512_2_alg».proof.Proof.Lane
import proofs.«125987_j34986803593512_2_alg».proof.Proof.Stack

noncomputable section

namespace Cert.KernelIdeal.Hand

open Cert.KernelIdeal Cert.KernelIdeal.Gen Cert.KernelIdeal.Facts₀ Idealize.ShloMosaic Idealize.ShloMosaic.TcCoe
open Idealize.ShloMosaic.ValueIdx

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The stored tile at (u, p, q, l): lane l's value at (p, q) of the five shared blocks. -/
theorem tile_apply (x0 : Vec Ideal S1x64x128 .f32) (x1 : Vec Ideal S1x512x128 .f32) (x2 : Vec Ideal S20x128 .f32)
    (u : Fin 1) (p : Fin 64) (q : Fin 512) (l : Fin 20) :
    out0_3 x0 x1 x2 (ix4 u p q l)
      = laneVal (k0_pay5 x0) (k0_pay6 x1) (k0_pay7 x2) (k0_pay8 x0 x2) (k0_pay9 x1 x2) p q l := by
  unfold out0_3
  rw [View.canon_unit_zero hz4]
  simp only [View.ld_unit_zero (S := S1x64x128) hz3, View.ld_unit_zero (S := S1x512x128) hz3,
    View.ld_unit_zero (S := S20x128) hz2]
  unfold k0_pay4
  refine (shapeCast_addUnit_apply ![64, 512, 20] _ Facts₀.shapeCasts_S64x512x20_S1x64x512x20 (ix4 u p q l)).trans ?_
  have e : (fun a : Fin 3 => (ix4 u p q l : S1x64x512x20.Idx) a.succ) = (ix3 p q l : S64x512x20.Idx) :=
    funext fun a => match a with | ⟨0, _⟩ => rfl | ⟨1, _⟩ => rfl | ⟨2, _⟩ => rfl
  refine (congrArg _ e).trans ?_
  unfold k0_pay3
  refine (stack20_apply Facts₀.shapeCasts_S64x512_S64x512x1 _ _ _ _ _ _ _ _ _ _ _ _ _ _ _ _ _ _ _ _ _ p q l).trans ?_
  match l with
  | ⟨0, _⟩ => exact lane_apply 0 (by decide) Facts₀.slices_S20x128_o0_0_S1x128 Facts₀.slices_S64x20_o0_0_S64x1 Facts₀.slices_S512x20_o0_0_S512x1 (k0_pay5 x0) (k0_pay6 x1) (k0_pay7 x2) (k0_pay8 x0 x2) (k0_pay9 x1 x2) p q
  | ⟨1, _⟩ => exact lane_apply 1 (by decide) Facts₀.slices_S20x128_o1_0_S1x128 Facts₀.slices_S64x20_o0_1_S64x1 Facts₀.slices_S512x20_o0_1_S512x1 (k0_pay5 x0) (k0_pay6 x1) (k0_pay7 x2) (k0_pay8 x0 x2) (k0_pay9 x1 x2) p q
  | ⟨2, _⟩ => exact lane_apply 2 (by decide) Facts₀.slices_S20x128_o2_0_S1x128 Facts₀.slices_S64x20_o0_2_S64x1 Facts₀.slices_S512x20_o0_2_S512x1 (k0_pay5 x0) (k0_pay6 x1) (k0_pay7 x2) (k0_pay8 x0 x2) (k0_pay9 x1 x2) p q
  | ⟨3, _⟩ => exact lane_apply 3 (by decide) Facts₀.slices_S20x128_o3_0_S1x128 Facts₀.slices_S64x20_o0_3_S64x1 Facts₀.slices_S512x20_o0_3_S512x1 (k0_pay5 x0) (k0_pay6 x1) (k0_pay7 x2) (k0_pay8 x0 x2) (k0_pay9 x1 x2) p q
  | ⟨4, _⟩ => exact lane_apply 4 (by decide) Facts₀.slices_S20x128_o4_0_S1x128 Facts₀.slices_S64x20_o0_4_S64x1 Facts₀.slices_S512x20_o0_4_S512x1 (k0_pay5 x0) (k0_pay6 x1) (k0_pay7 x2) (k0_pay8 x0 x2) (k0_pay9 x1 x2) p q
  | ⟨5, _⟩ => exact lane_apply 5 (by decide) Facts₀.slices_S20x128_o5_0_S1x128 Facts₀.slices_S64x20_o0_5_S64x1 Facts₀.slices_S512x20_o0_5_S512x1 (k0_pay5 x0) (k0_pay6 x1) (k0_pay7 x2) (k0_pay8 x0 x2) (k0_pay9 x1 x2) p q
  | ⟨6, _⟩ => exact lane_apply 6 (by decide) Facts₀.slices_S20x128_o6_0_S1x128 Facts₀.slices_S64x20_o0_6_S64x1 Facts₀.slices_S512x20_o0_6_S512x1 (k0_pay5 x0) (k0_pay6 x1) (k0_pay7 x2) (k0_pay8 x0 x2) (k0_pay9 x1 x2) p q
  | ⟨7, _⟩ => exact lane_apply 7 (by decide) Facts₀.slices_S20x128_o7_0_S1x128 Facts₀.slices_S64x20_o0_7_S64x1 Facts₀.slices_S512x20_o0_7_S512x1 (k0_pay5 x0) (k0_pay6 x1) (k0_pay7 x2) (k0_pay8 x0 x2) (k0_pay9 x1 x2) p q
  | ⟨8, _⟩ => exact lane_apply 8 (by decide) Facts₀.slices_S20x128_o8_0_S1x128 Facts₀.slices_S64x20_o0_8_S64x1 Facts₀.slices_S512x20_o0_8_S512x1 (k0_pay5 x0) (k0_pay6 x1) (k0_pay7 x2) (k0_pay8 x0 x2) (k0_pay9 x1 x2) p q
  | ⟨9, _⟩ => exact lane_apply 9 (by decide) Facts₀.slices_S20x128_o9_0_S1x128 Facts₀.slices_S64x20_o0_9_S64x1 Facts₀.slices_S512x20_o0_9_S512x1 (k0_pay5 x0) (k0_pay6 x1) (k0_pay7 x2) (k0_pay8 x0 x2) (k0_pay9 x1 x2) p q
  | ⟨10, _⟩ => exact lane_apply 10 (by decide) Facts₀.slices_S20x128_o10_0_S1x128 Facts₀.slices_S64x20_o0_10_S64x1 Facts₀.slices_S512x20_o0_10_S512x1 (k0_pay5 x0) (k0_pay6 x1) (k0_pay7 x2) (k0_pay8 x0 x2) (k0_pay9 x1 x2) p q
  | ⟨11, _⟩ => exact lane_apply 11 (by decide) Facts₀.slices_S20x128_o11_0_S1x128 Facts₀.slices_S64x20_o0_11_S64x1 Facts₀.slices_S512x20_o0_11_S512x1 (k0_pay5 x0) (k0_pay6 x1) (k0_pay7 x2) (k0_pay8 x0 x2) (k0_pay9 x1 x2) p q
  | ⟨12, _⟩ => exact lane_apply 12 (by decide) Facts₀.slices_S20x128_o12_0_S1x128 Facts₀.slices_S64x20_o0_12_S64x1 Facts₀.slices_S512x20_o0_12_S512x1 (k0_pay5 x0) (k0_pay6 x1) (k0_pay7 x2) (k0_pay8 x0 x2) (k0_pay9 x1 x2) p q
  | ⟨13, _⟩ => exact lane_apply 13 (by decide) Facts₀.slices_S20x128_o13_0_S1x128 Facts₀.slices_S64x20_o0_13_S64x1 Facts₀.slices_S512x20_o0_13_S512x1 (k0_pay5 x0) (k0_pay6 x1) (k0_pay7 x2) (k0_pay8 x0 x2) (k0_pay9 x1 x2) p q
  | ⟨14, _⟩ => exact lane_apply 14 (by decide) Facts₀.slices_S20x128_o14_0_S1x128 Facts₀.slices_S64x20_o0_14_S64x1 Facts₀.slices_S512x20_o0_14_S512x1 (k0_pay5 x0) (k0_pay6 x1) (k0_pay7 x2) (k0_pay8 x0 x2) (k0_pay9 x1 x2) p q
  | ⟨15, _⟩ => exact lane_apply 15 (by decide) Facts₀.slices_S20x128_o15_0_S1x128 Facts₀.slices_S64x20_o0_15_S64x1 Facts₀.slices_S512x20_o0_15_S512x1 (k0_pay5 x0) (k0_pay6 x1) (k0_pay7 x2) (k0_pay8 x0 x2) (k0_pay9 x1 x2) p q
  | ⟨16, _⟩ => exact lane_apply 16 (by decide) Facts₀.slices_S20x128_o16_0_S1x128 Facts₀.slices_S64x20_o0_16_S64x1 Facts₀.slices_S512x20_o0_16_S512x1 (k0_pay5 x0) (k0_pay6 x1) (k0_pay7 x2) (k0_pay8 x0 x2) (k0_pay9 x1 x2) p q
  | ⟨17, _⟩ => exact lane_apply 17 (by decide) Facts₀.slices_S20x128_o17_0_S1x128 Facts₀.slices_S64x20_o0_17_S64x1 Facts₀.slices_S512x20_o0_17_S512x1 (k0_pay5 x0) (k0_pay6 x1) (k0_pay7 x2) (k0_pay8 x0 x2) (k0_pay9 x1 x2) p q
  | ⟨18, _⟩ => exact lane_apply 18 (by decide) Facts₀.slices_S20x128_o18_0_S1x128 Facts₀.slices_S64x20_o0_18_S64x1 Facts₀.slices_S512x20_o0_18_S512x1 (k0_pay5 x0) (k0_pay6 x1) (k0_pay7 x2) (k0_pay8 x0 x2) (k0_pay9 x1 x2) p q
  | ⟨19, _⟩ => exact lane_apply 19 (by decide) Facts₀.slices_S20x128_o19_0_S1x128 Facts₀.slices_S64x20_o0_19_S64x1 Facts₀.slices_S512x20_o0_19_S512x1 (k0_pay5 x0) (k0_pay6 x1) (k0_pay7 x2) (k0_pay8 x0 x2) (k0_pay9 x1 x2) p q
  | ⟨n + 20, h⟩ => exact absurd h (by omega)

end Cert.KernelIdeal.Hand

end
-- ==== Proof.Spec.lean ====
/-
  The function both programs compute, entry by entry, on the extended reals.

  From two [16, 512, 128] arrays A0, A1 and a [20, 128] weight array W, the result is the [16, 512, 512, 20] array
  whose entry (b, s, t, l) is a weighted cosine similarity of row s of A0's batch b and row t of A1's batch b, the
  weights being the squares of row l of W:

      num  = Σ_k A0(b,s,k) · W(l,k)² · A1(b,t,k)
      n0   = sqrt (Σ_k A0(b,s,k)² · W(l,k)²)          n1 = sqrt (Σ_k A1(b,t,k)² · W(l,k)²)
      entry = num / (if n0 · n1 > ε then n0 · n1 else ε)

  Every product is spelt in the order the kernel multiplies (the square of the weight taken first). The reference
  weights each operand once before multiplying; the two spellings of each summand agree because multiplication
  of extended reals is commutative and associative (no distributivity and no cancelling are involved, so
  infinite entries need no separate treatment): `weighted_pair`, `weighted_square`.
-/
import Idealize.ShloMosaic.PureOps.Ideal
import Idealize.ShloMosaic.Lib.ValueIdx

noncomputable section

namespace Cert.Spec

open Idealize.ShloMosaic Idealize.ShloMosaic.ValueIdx

/-- The small constant the denominator is kept above (the f32 word nearest 1e-8). -/
abbrev eps : EReal := Scalar.ofBits (F := Ideal) .f32 0x322BCC77#32

abbrev Arr3 : Type := (⟨3, ![16, 512, 128]⟩ : Shape).Idx → EReal
abbrev Wts : Type := (⟨2, ![20, 128]⟩ : Shape).Idx → EReal

/-- Σ_k A0(b,s,k) · W(l,k)² · A1(b,t,k). -/
def wdot (A0 A1 : Arr3) (W : Wts) (b : Fin 16) (s t : Fin 512) (l : Fin 20) : EReal :=
  ∑ k : Fin 128, (A0 (ix3 b s k) * (W (ix2 l k) * W (ix2 l k))) * A1 (ix3 b t k)

/-- sqrt (Σ_k A(b,s,k)² · W(l,k)²). -/
def wnorm (A : Arr3) (W : Wts) (b : Fin 16) (s : Fin 512) (l : Fin 20) : EReal :=
  Ideal.sqrt (∑ k : Fin 128, (A (ix3 b s k) * A (ix3 b s k)) * (W (ix2 l k) * W (ix2 l k)))

/-- A quotient whose denominator is replaced by ε wherever it does not exceed ε. -/
def guarded (n d : EReal) : EReal :=
  Ideal.div n (Scalar.select (FloatOps.cmpf (F := Ideal) (φ := .f32) .ogt d eps) d eps)

/-- Entry (b, s, t, l). -/
def entry (A0 A1 : Arr3) (W : Wts) (b : Fin 16) (s t : Fin 512) (l : Fin 20) : EReal :=
  guarded (wdot A0 A1 W b s t l) (wnorm A0 W b s l * wnorm A1 W b t l)

/-- The whole result array. -/
def G (A0 A1 : Arr3) (W : Wts) : (⟨4, ![16, 512, 512, 20]⟩ : Shape).Idx → EReal :=
  fun i => entry A0 A1 W (i 0) (i 1) (i 2) (i 3)

/-- An entry depends on its coordinates' values only. -/
theorem entry_congr (A0 A1 : Arr3) (W : Wts) {b b' : Fin 16} {s s' t t' : Fin 512} {l l' : Fin 20}
    (hb : b.val = b'.val) (hs : s.val = s'.val) (ht : t.val = t'.val) (hl : l.val = l'.val) :
    entry A0 A1 W b s t l = entry A0 A1 W b' s' t' l' := by
  obtain rfl := Fin.ext hb
  obtain rfl := Fin.ext hs
  obtain rfl := Fin.ext ht
  obtain rfl := Fin.ext hl
  rfl

/-- Weighting both operands once is weighting one of them by the square: (w·a)·(w·c) = (a·(w·w))·c. -/
theorem weighted_pair (w a c : EReal) : (w * a) * (w * c) = (a * (w * w)) * c :=
  calc (w * a) * (w * c) = (w * w) * (a * c) := mul_mul_mul_comm w a w c
    _ = ((w * w) * a) * c := (mul_assoc (w * w) a c).symm
    _ = (a * (w * w)) * c := congrArg (· * c) (mul_comm (w * w) a)

/-- The square of a weighted entry: (w·a)·(w·a) = (a·a)·(w·w). -/
theorem weighted_square (w a : EReal) : (w * a) * (w * a) = (a * a) * (w * w) :=
  (mul_mul_mul_comm w a w a).trans (mul_comm (w * w) (a * a))

end Cert.Spec

end
-- ==== Proof.Entry.lean ====
/-
  The stored tile is a tile of the specification.

  The five blocks every lane shares, read at an index in terms of the three loaded blocks x0, x1, x2:
    the row blocks are x0 and x1 without their leading unit axis; the squared weights are x2 · x2 entrywise;
    the norm blocks are the square roots of (x · x) contracted with the squared weights over the last axis.
  Substituting these into a lane's value, and reading the loaded blocks as rows of the argument arrays — x0 is rows
  64·i … 64·i + 63 of batch b of A0, x1 is all 512 rows of batch b of A1, x2 is W — the tile's entry (u, p, q, l)
  is the specification's entry (b, 64·i + p, q, l).
-/
import proofs.«125987_j34986803593512_2_alg».proof.Proof.Tile
import proofs.«125987_j34986803593512_2_alg».proof.Proof.Spec

noncomputable section

namespace Cert.KernelIdeal.Hand

open Cert.KernelIdeal Cert.KernelIdeal.Gen Idealize.ShloMosaic Idealize.ShloMosaic.TcCoe
open Idealize.ShloMosaic.ValueIdx

/-- The first row block without its leading unit axis. -/
theorem rows0_apply (x0 : Vec Ideal S1x64x128 .f32) (p : Fin 64) (k : Fin 128) :
    k0_pay5 x0 (ix2 p k) = x0 (ix3 (0 : Fin 1) p k) := by
  unfold k0_pay5
  refine (shapeCast_dropUnit_apply ![64, 128] x0 Facts₀.shapeCasts_S1x64x128_S64x128 (ix2 p k)).trans (congrArg x0 ?_)
  funext a
  match a with
  | ⟨0, _⟩ => rfl
  | ⟨1, _⟩ => rfl
  | ⟨2, _⟩ => rfl

/-- The second row block without its leading unit axis. -/
theorem rows1_apply (x1 : Vec Ideal S1x512x128 .f32) (q : Fin 512) (k : Fin 128) :
    k0_pay6 x1 (ix2 q k) = x1 (ix3 (0 : Fin 1) q k) := by
  unfold k0_pay6
  refine (shapeCast_dropUnit_apply ![512, 128] x1 Facts₀.shapeCasts_S1x512x128_S512x128 (ix2 q k)).trans (congrArg x1 ?_)
  funext a
  match a with
  | ⟨0, _⟩ => rfl
  | ⟨1, _⟩ => rfl
  | ⟨2, _⟩ => rfl

/-- The squared weights. -/
theorem wsq_apply (x2 : Vec Ideal S20x128 .f32) (l : Fin 20) (k : Fin 128) :
    k0_pay7 x2 (ix2 l k) = x2 (ix2 l k) * x2 (ix2 l k) := rfl

/-- The first block of weighted norms: row p, lane l. -/
theorem norms0_apply (x0 : Vec Ideal S1x64x128 .f32) (x2 : Vec Ideal S20x128 .f32) (p : Fin 64) (l : Fin 20) :
    k0_pay8 x0 x2 (ix2 p l)
      = Ideal.sqrt (∑ k : Fin 128, (x0 (ix3 (0 : Fin 1) p k) * x0 (ix3 (0 : Fin 1) p k)) * (x2 (ix2 l k) * x2 (ix2 l k))) := by
  unfold k0_pay8
  show Ideal.sqrt (FloatOps.matmul dot_S64x128_S20x128_S64x20_1_1_0_0_n_n none (mulf (k0_pay5 x0) (k0_pay5 x0)) (k0_pay7 x2)
    (constant S64x20 .f32 0x00000000#32) (ix2 p l)) = _
  rw [dot_rows_lanes]
  refine congrArg Ideal.sqrt (Finset.sum_congr rfl fun k _ => ?_)
  rw [mulf_apply, rows0_apply, wsq_apply]

/-- The second block of weighted norms: row q, lane l. -/
theorem norms1_apply (x1 : Vec Ideal S1x512x128 .f32) (x2 : Vec Ideal S20x128 .f32) (q : Fin 512) (l : Fin 20) :
    k0_pay9 x1 x2 (ix2 q l)
      = Ideal.sqrt (∑ k : Fin 128, (x1 (ix3 (0 : Fin 1) q k) * x1 (ix3 (0 : Fin 1) q k)) * (x2 (ix2 l k) * x2 (ix2 l k))) := by
  unfold k0_pay9
  show Ideal.sqrt (FloatOps.matmul dot_S512x128_S20x128_S512x20_1_1_0_0_n_n none (mulf (k0_pay6 x1) (k0_pay6 x1)) (k0_pay7 x2)
    (constant S512x20 .f32 0x00000000#32) (ix2 q l)) = _
  rw [dot_cols_lanes]
  refine congrArg Ideal.sqrt (Finset.sum_congr rfl fun k _ => ?_)
  rw [mulf_apply, rows1_apply, wsq_apply]

/-- THE TILE AS A TILE OF THE SPECIFICATION: if x0 holds rows 64·i … of batch b of A0, x1 the rows of batch b of A1 and
    x2 the weights W, the stored tile at y is the specification's entry at (b, 64·i + y₁, y₂, y₃). -/
theorem tile_entry (A0 A1 : Cert.Spec.Arr3) (W : Cert.Spec.Wts)
    (x0 : Vec Ideal S1x64x128 .f32) (x1 : Vec Ideal S1x512x128 .f32) (x2 : Vec Ideal S20x128 .f32)
    (b : Fin 16) (i : Nat) (hi : i < 8)
    (h0 : ∀ (p : Fin 64) (k : Fin 128), x0 (ix3 (0 : Fin 1) p k) = A0 (ix3 b ⟨i * 64 + p.val, by omega⟩ k))
    (h1 : ∀ (q : Fin 512) (k : Fin 128), x1 (ix3 (0 : Fin 1) q k) = A1 (ix3 b q k))
    (h2 : ∀ (l : Fin 20) (k : Fin 128), x2 (ix2 l k) = W (ix2 l k))
    (u : Fin 1) (p : Fin 64) (q : Fin 512) (l : Fin 20) :
    out0_3 x0 x1 x2 (ix4 u p q l) = Cert.Spec.entry A0 A1 W b ⟨i * 64 + p.val, by omega⟩ q l := by
  rw [tile_apply]
  unfold laneVal Cert.Spec.entry Cert.Spec.guarded Cert.Spec.wdot Cert.Spec.wnorm
  simp only [rows0_apply, rows1_apply, wsq_apply, norms0_apply, norms1_apply, h0, h1, h2]

/-- The same at any index y of the tile, by its coordinates. -/
theorem tile_entry_idx (A0 A1 : Cert.Spec.Arr3) (W : Cert.Spec.Wts)
    (x0 : Vec Ideal S1x64x128 .f32) (x1 : Vec Ideal S1x512x128 .f32) (x2 : Vec Ideal S20x128 .f32)
    (b : Fin 16) (i : Nat) (hi : i < 8)
    (h0 : ∀ (p : Fin 64) (k : Fin 128), x0 (ix3 (0 : Fin 1) p k) = A0 (ix3 b ⟨i * 64 + p.val, by omega⟩ k))
    (h1 : ∀ (q : Fin 512) (k : Fin 128), x1 (ix3 (0 : Fin 1) q k) = A1 (ix3 b q k))
    (h2 : ∀ (l : Fin 20) (k : Fin 128), x2 (ix2 l k) = W (ix2 l k))
    (y : S1x64x512x20.Idx) :
    out0_3 x0 x1 x2 y
      = Cert.Spec.entry A0 A1 W b ⟨i * 64 + (y 1).val, by have h : (y 1).val < 64 := (y 1).isLt; omega⟩ (y 2) (y 3) := by
  obtain ⟨u, p, q, l, rfl⟩ : ∃ (u : Fin 1) (p : Fin 64) (q : Fin 512) (l : Fin 20), y = ix4 u p q l :=
    ⟨y 0, y 1, y 2, y 3, eq_ix4 y⟩
  exact tile_entry A0 A1 W x0 x1 x2 b i hi h0 h1 h2 u p q l

end Cert.KernelIdeal.Hand

end
-- ==== Proof.Blocks.lean ====
/-
  From the tiles to the whole result array.

  The grid has 16 × 8 points (b, i). At point (b, i) the first window's block is rows 64·i … 64·i + 63 of batch b of
  the first argument, the second window's block is all 512 rows of batch b of the second argument, the third
  window's block is the whole weight array, and the output window's block is rows 64·i … 64·i + 63 of batch b of the
  result (all 512 columns, all 20 lanes). So what each point writes back is the block, under its window, of ONE
  function of the three argument arrays (the specification), the blocks tile the result array (row r of batch b
  belongs to point (b, r / 64)), and after the run the result array is that function.
-/
import proofs.«125987_j34986803593512_2_alg».proof.Proof.Gen.KernelIdeal.Value
import proofs.«125987_j34986803593512_2_alg».proof.Proof.Entry

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three argument arrays of core c, as launched. -/
abbrev arr0 (c : Dev nD) : Cert.Spec.Arr3 := m ((c : Thread nD τ).loc main_arg0)
abbrev arr1 (c : Dev nD) : Cert.Spec.Arr3 := m ((c : Thread nD τ).loc main_arg1)
abbrev wts (c : Dev nD) : Cert.Spec.Wts := m ((c : Thread nD τ).loc main_arg2)

/-- The result array the specification assigns to core c's arguments. -/
abbrev result (c : Dev nD) : Buf (Elt Ideal) ((c : Thread nD τ).loc main_v0) :=
  Cert.Spec.G (arr0 m c) (arr1 m c) (wts m c)

/-- The index maps, decided over the 128 grid points: the first window follows the output window on batch and row
    block; the second follows it on batch and stays at row block 0; the weights' window stays put; the output
    window never moves along columns or lanes; batch and row block stay in range. -/
theorem idx_facts : ∀ t : Fin cfg0.N,
    win0_0.index t (0 : Fin 3) = win0_3.index t (0 : Fin 4) ∧ win0_0.index t (1 : Fin 3) = win0_3.index t (1 : Fin 4)
    ∧ win0_0.index t (2 : Fin 3) = 0
    ∧ win0_1.index t (0 : Fin 3) = win0_3.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (2 : Fin 4) = 0 ∧ win0_3.index t (3 : Fin 4) = 0
    ∧ win0_3.index t (0 : Fin 4) < 16 ∧ win0_3.index t (1 : Fin 4) < 8 :=
  (by decide +kernel : ∀ t : Fin grid0.N, _)

/-- Every (batch, row block) is some point's. -/
theorem idx_onto : ∀ (b : Fin 16) (i : Fin 8), ∃ t : Fin cfg0.N, win0_3.index t = ![b.val, i.val, 0, 0] :=
  (by decide +kernel : ∀ (b : Fin 16) (i : Fin 8), ∃ t : Fin grid0.N, win0_3.index t = ![b.val, i.val, 0, 0])

/-! ## Each input window's block, read as entries of its argument array -/

/-- The first window's block at point t: entry x is the first argument at the block's offset plus x. -/
theorem block0_apply (c : Dev nD) (t : Fin cfg0.N) (x : S1x64x128.Idx) (k : S16x512x128.Idx)
    (hk0 : (k 0).val = win0_0.index t 0 * 1 + (x 0).val) (hk1 : (k 1).val = win0_0.index t 1 * 64 + (x 1).val)
    (hk2 : (k 2).val = win0_0.index t 2 * 128 + (x 2).val) :
    (iblk m c 0 t : Vec Ideal S1x64x128 .f32) x = arr0 m c k := by
  unfold iblk
  rw [View.read_apply]
  show V m c main_arg0 _ = m (c.tc.loc main_arg0) _
  unfold V
  congr 1
  funext a
  apply Fin.ext
  match a with
  | ⟨0, _⟩ => show win0_0.index t 0 * 1 + 1 * (x 0).val = (k 0).val; omega
  | ⟨1, _⟩ => show win0_0.index t 1 * 64 + 1 * (x 1).val = (k 1).val; omega
  | ⟨2, _⟩ => show win0_0.index t 2 * 128 + 1 * (x 2).val = (k 2).val; omega

/-- The second window's block at point t. -/
theorem block1_apply (c : Dev nD) (t : Fin cfg0.N) (x : S1x512x128.Idx) (k : S16x512x128.Idx)
    (hk0 : (k 0).val = win0_1.index t 0 * 1 + (x 0).val) (hk1 : (k 1).val = win0_1.index t 1 * 512 + (x 1).val)
    (hk2 : (k 2).val = win0_1.index t 2 * 128 + (x 2).val) :
    (iblk m c 1 t : Vec Ideal S1x512x128 .f32) x = arr1 m c k := by
  unfold iblk
  rw [View.read_apply]
  show V m c main_arg1 _ = m (c.tc.loc main_arg1) _
  unfold V
  congr 1
  funext a
  apply Fin.ext
  match a with
  | ⟨0, _⟩ => show win0_1.index t 0 * 1 + 1 * (x 0).val = (k 0).val; omega
  | ⟨1, _⟩ => show win0_1.index t 1 * 512 + 1 * (x 1).val = (k 1).val; omega
  | ⟨2, _⟩ => show win0_1.index t 2 * 128 + 1 * (x 2).val = (k 2).val; omega

/-- The weights' window's block at point t. -/
theorem block2_apply (c : Dev nD) (t : Fin cfg0.N) (x : S20x128.Idx) (k : S20x128.Idx)
    (hk0 : (k 0).val = win0_2.index t 0 * 20 + (x 0).val) (hk1 : (k 1).val = win0_2.index t 1 * 128 + (x 1).val) :
    (iblk m c 2 t : Vec Ideal S20x128 .f32) x = wts m c k := by
  unfold iblk
  rw [View.read_apply]
  show V m c main_arg2 _ = m (c.tc.loc main_arg2) _
  unfold V
  congr 1
  funext a
  apply Fin.ext
  match a with
  | ⟨0, _⟩ => show win0_2.index t 0 * 20 + 1 * (x 0).val = (k 0).val; omega
  | ⟨1, _⟩ => show win0_2.index t 1 * 128 + 1 * (x 1).val = (k 1).val; omega

/-! ## What a point writes back, the cover, the array after the run -/

/-- WHAT POINT t WRITES BACK is block t of the specification's array. -/
theorem flushed_eq (c : Dev nD) (t : Fin cfg0.N) :
    (dats m 0 c).flushed 3 t = ((cfg0.win 3).blk t).view.read (Elt Ideal) (result m c) := by
  rw [Cert.KernelIdeal.Value.flushed3]
  obtain ⟨e00, e01, e02, e10, e11, e12, e20, e21, e32, e33, hb, hi⟩ := idx_facts t
  funext y
  show out0_3 (iblk m c 0 t) (iblk m c 1 t) (iblk m c 2 t) y
    = Cert.Spec.G (arr0 m c) (arr1 m c) (wts m c) (((cfg0.win 3).blk t).view.emb y)
  refine (tile_entry_idx (arr0 m c) (arr1 m c) (wts m c) (iblk m c 0 t) (iblk m c 1 t) (iblk m c 2 t)
    ⟨win0_3.index t (0 : Fin 4), hb⟩ (win0_3.index t (1 : Fin 4)) hi (fun p k => ?_) (fun q k => ?_) (fun l k => ?_) y).trans ?_
  · refine block0_apply m c t _ _ ?_ ?_ ?_
    · show win0_3.index t (0 : Fin 4) = win0_0.index t 0 * 1 + 0; omega
    · show win0_3.index t (1 : Fin 4) * 64 + p.val = win0_0.index t 1 * 64 + p.val; omega
    · show k.val = win0_0.index t 2 * 128 + k.val; omega
  · refine block1_apply m c t _ _ ?_ ?_ ?_
    · show win0_3.index t (0 : Fin 4) = win0_1.index t 0 * 1 + 0; omega
    · show q.val = win0_1.index t 1 * 512 + q.val; omega
    · show k.val = win0_1.index t 2 * 128 + k.val; omega
  · refine block2_apply m c t _ _ ?_ ?_
    · show l.val = win0_2.index t 0 * 20 + l.val; omega
    · show k.val = win0_2.index t 1 * 128 + k.val; omega
  · have hy0 : (y 0).val < 1 := (y 0).isLt
    refine Cert.Spec.entry_congr _ _ _ ?_ ?_ ?_ ?_
    · show win0_3.index t (0 : Fin 4) = win0_3.index t (0 : Fin 4) * 1 + 1 * (y 0).val; omega
    · show win0_3.index t (1 : Fin 4) * 64 + (y 1).val = win0_3.index t (1 : Fin 4) * 64 + 1 * (y 1).val; omega
    · show (y 2).val = win0_3.index t (2 : Fin 4) * 512 + 1 * (y 2).val; omega
    · show (y 3).val = win0_3.index t (3 : Fin 4) * 20 + 1 * (y 3).val; omega

/-- An index of the result array is in point t's block iff each coordinate is in the block's range on its axis. -/
theorem mem_blk (t : Fin cfg0.N) (i : S16x512x512x20.Idx) :
    i ∈ ((cfg0.win 3).blk t).view.set ↔ ∀ a : Fin 4, win0_3.index t a * S1x64x512x20.size a ≤ (i a).val
      ∧ (i a).val < win0_3.index t a * S1x64x512x20.size a + S1x64x512x20.size a := by
  show i ∈ ((View.whole main_v0).slice (win0_3.rect t)).set ↔ _
  rw [View.set_slice_whole, Rect.mem_set_unit]
  exact Iff.rfl

/-- THE COVER: row r of batch b lies in the block of point (b, r / 64). -/
theorem cover (i : S16x512x512x20.Idx) :
    ∃ t : Fin cfg0.N, (cfg0.win 3).flush t = true ∧ i ∈ ((cfg0.win 3).blk t).view.set := by
  have hi0 : (i 0).val < 16 := (i 0).isLt
  have hi1 : (i 1).val < 512 := (i 1).isLt
  have hi2 : (i 2).val < 512 := (i 2).isLt
  have hi3 : (i 3).val < 20 := (i 3).isLt
  obtain ⟨t, ht⟩ := idx_onto ⟨(i 0).val, hi0⟩ ⟨(i 1).val / 64, by omega⟩
  have q0 : win0_3.index t (0 : Fin 4) = (i 0).val := congrFun ht 0
  have q1 : win0_3.index t (1 : Fin 4) = (i 1).val / 64 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ =>
    show win0_3.index t (0 : Fin 4) * 1 ≤ (i 0).val ∧ (i 0).val < win0_3.index t (0 : Fin 4) * 1 + 1; omega
  | ⟨1, _⟩ =>
    show win0_3.index t (1 : Fin 4) * 64 ≤ (i 1).val ∧ (i 1).val < win0_3.index t (1 : Fin 4) * 64 + 64; omega
  | ⟨2, _⟩ =>
    show win0_3.index t (2 : Fin 4) * 512 ≤ (i 2).val ∧ (i 2).val < win0_3.index t (2 : Fin 4) * 512 + 512; omega
  | ⟨3, _⟩ =>
    show win0_3.index t (3 : Fin 4) * 20 ≤ (i 3).val ∧ (i 3).val < win0_3.index t (3 : Fin 4) * 20 + 20; omega

/-- THE ARRAY after the run is the specification's. -/
theorem final (c : Dev nD) : (dats m 0 c).arrAt 3 cfg0.N = result m c :=
  (dats m 0 c).arrAt_eq_of_cover 3 (result m c) (fun t _ => flushed_eq m c t) (cover)

/-- The run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Hand

end
-- ==== Proof.RefValue.lean ====
/-
  The reference computes the specification.

  The reference weights each operand once, v4(b,l,s,k) = W(l,k) · A0(b,s,k) and v9(b,l,t,k) = W(l,k) · A1(b,t,k); takes
  the norms sqrt (0 + Σ_k v(…,k)²) and the products Σ_k v4(b,l,s,k) · v9(b,l,t,k); divides the products by the product of
  the norms, replaced by ε wherever it does not exceed ε; and transposes the lane axis to the end. Read one stage at a
  time at an index, each summand is a re-bracketing of the specification's summand (`weighted_pair`,
  `weighted_square`), and the zero the sums start from disappears.
-/
import proofs.«125987_j34986803593512_2_alg».proof.Proof.Gen.ReferenceIdeal.Read
import proofs.«125987_j34986803593512_2_alg».proof.Proof.Spec

noncomputable section

namespace Cert.ReferenceIdeal.Hand

open Cert.ReferenceIdeal Cert.ReferenceIdeal.Read Idealize.ShloMosaic Idealize.ShloMosaic.ValueIdx
open Cert.Spec

variable (x0 x1 : (⟨S16x512x128, .f32⟩ : BufTy).Contents (Elt Ideal)) (x2 : (⟨S20x128, .f32⟩ : BufTy).Contents (Elt Ideal))

/-- The first weighted operand at (b, l, s, k). -/
theorem weighted0 (b : Fin 16) (l : Fin 20) (s : Fin 512) (k : Fin 128) :
    val_main_v4 (F := Ideal) x0 x2 (ix4 b l s k) = x2 (ix2 l k) * x0 (ix3 b s k) := by
  rw [val_main_v4_apply, val_main_v2_apply, val_main_v0_apply, val_main_v3_apply, val_main_v1_apply]
  have e2 : idx_main_v0 (idx_main_v2 (ix4 b l s k)) = ix2 l k :=
    funext fun a => Fin.ext (by match a with | ⟨0, _⟩ => rfl | ⟨1, _⟩ => rfl)
  have e0 : idx_main_v1 (idx_main_v3 (ix4 b l s k)) = ix3 b s k :=
    funext fun a => Fin.ext (by match a with | ⟨0, _⟩ => rfl | ⟨1, _⟩ => rfl | ⟨2, _⟩ => rfl)
  rw [e2, e0]
  rfl

/-- The second weighted operand at (b, l, t, k). -/
theorem weighted1 (b : Fin 16) (l : Fin 20) (t : Fin 512) (k : Fin 128) :
    val_main_v9 (F := Ideal) x1 x2 (ix4 b l t k) = x2 (ix2 l k) * x1 (ix3 b t k) := by
  rw [val_main_v9_apply, val_main_v7_apply, val_main_v5_apply, val_main_v8_apply, val_main_v6_apply]
  have e2 : idx_main_v5 (idx_main_v7 (ix4 b l t k)) = ix2 l k :=
    funext fun a => Fin.ext (by match a with | ⟨0, _⟩ => rfl | ⟨1, _⟩ => rfl)
  have e1 : idx_main_v6 (idx_main_v8 (ix4 b l t k)) = ix3 b t k :=
    funext fun a => Fin.ext (by match a with | ⟨0, _⟩ => rfl | ⟨1, _⟩ => rfl | ⟨2, _⟩ => rfl)
  rw [e2, e1]
  rfl

/-- The first norm at (b, l, s). -/
theorem norm0 (b : Fin 16) (l : Fin 20) (s : Fin 512) (u : Fin 1) :
    val_main_v10 (F := Ideal) x0 x2 (ix4 b l s u) = wnorm x0 x2 b s l := by
  rw [val_main_v10_apply, Ideal.hostUnary_sqrt_def, val_main_call0_v2_apply, val_main_call0_v1_apply,
    val_main_call0_cst_apply]
  show Ideal.sqrt (Ideal.ofBits .f32 0x00000000#32 + _) = _
  rw [Ideal.ofBits_zero_f32, zero_add]
  refine congrArg Ideal.sqrt (Finset.sum_congr rfl fun k _ => ?_)
  have e : idx_main_call0_v1 (idx_main_call0_v2 (ix4 b l s u)) k = ix4 b l s k :=
    funext fun a => Fin.ext (by match a with | ⟨0, _⟩ => rfl | ⟨1, _⟩ => rfl | ⟨2, _⟩ => rfl | ⟨3, _⟩ => rfl)
  rw [e, val_main_call0_v0_apply, weighted0]
  exact weighted_square _ _

/-- The second norm at (b, l, t). -/
theorem norm1 (b : Fin 16) (l : Fin 20) (t : Fin 512) (u : Fin 1) :
    val_main_v11 (F := Ideal) x1 x2 (ix4 b l t u) = wnorm x1 x2 b t l := by
  rw [val_main_v11_apply, Ideal.hostUnary_sqrt_def, val_main_call1_v2_apply, val_main_call1_v1_apply,
    val_main_call1_cst_apply]
  show Ideal.sqrt (Ideal.ofBits .f32 0x00000000#32 + _) = _
  rw [Ideal.ofBits_zero_f32, zero_add]
  refine congrArg Ideal.sqrt (Finset.sum_congr rfl fun k _ => ?_)
  have e : idx_main_call1_v1 (idx_main_call1_v2 (ix4 b l t u)) k = ix4 b l t k :=
    funext fun a => Fin.ext (by match a with | ⟨0, _⟩ => rfl | ⟨1, _⟩ => rfl | ⟨2, _⟩ => rfl | ⟨3, _⟩ => rfl)
  rw [e, val_main_call1_v0_apply, weighted1]
  exact weighted_square _ _

/-- The contracted product at (b, l, s, t). -/
theorem product (b : Fin 16) (l : Fin 20) (s t : Fin 512) :
    val_main_v12 (F := Ideal) x0 x1 x2 (ix4 b l s t) = wdot x0 x1 x2 b s t l := by
  rw [val_main_v12_apply]
  refine Finset.sum_congr rfl fun k _ => ?_
  have el : lidx_main_v12 (ix4 b l s t) k = ix4 b l s k :=
    funext fun a => Fin.ext (by match a with | ⟨0, _⟩ => rfl | ⟨1, _⟩ => rfl | ⟨2, _⟩ => rfl | ⟨3, _⟩ => rfl)
  have er : ridx_main_v12 (ix4 b l s t) k = ix4 b l t k :=
    funext fun a => Fin.ext (by match a with | ⟨0, _⟩ => rfl | ⟨1, _⟩ => rfl | ⟨2, _⟩ => rfl | ⟨3, _⟩ => rfl)
  rw [el, er, weighted0, weighted1]
  exact weighted_pair _ _ _

/-- The product of the two norms at (b, l, s, t). -/
theorem norms (b : Fin 16) (l : Fin 20) (s t : Fin 512) :
    val_main_v16 (F := Ideal) x0 x1 x2 (ix4 b l s t) = wnorm x0 x2 b s l * wnorm x1 x2 b t l := by
  rw [val_main_v16_apply, val_main_v14_apply, val_main_v15_apply, val_main_v13_apply]
  have e0 : idx_main_v14 (ix4 b l s t) = ix4 b l s (0 : Fin 1) :=
    funext fun a => Fin.ext (by match a with | ⟨0, _⟩ => rfl | ⟨1, _⟩ => rfl | ⟨2, _⟩ => rfl | ⟨3, _⟩ => rfl)
  have e1 : idx_main_v13 (idx_main_v15 (ix4 b l s t)) = ix4 b l t (0 : Fin 1) :=
    funext fun a => Fin.ext (by match a with | ⟨0, _⟩ => rfl | ⟨1, _⟩ => rfl | ⟨2, _⟩ => rfl | ⟨3, _⟩ => rfl)
  rw [e0, e1, norm0, norm1]
  rfl

/-- THE REFERENCE'S RESULT is the specification's array. -/
theorem result_eq : val_main_v21 (F := Ideal) x0 x1 x2 = G x0 x1 x2 := by
  funext i
  obtain ⟨b, s, t, l, rfl⟩ : ∃ (b : Fin 16) (s t : Fin 512) (l : Fin 20), i = ix4 b s t l :=
    ⟨i 0, i 1, i 2, i 3, eq_ix4 i⟩
  have e : idx_main_v21 (ix4 b s t l) = ix4 b l s t :=
    funext fun a => Fin.ext (by match a with | ⟨0, _⟩ => rfl | ⟨1, _⟩ => rfl | ⟨2, _⟩ => rfl | ⟨3, _⟩ => rfl)
  rw [val_main_v21_apply, e, val_main_v20_apply, Ideal.hostDivf_def, product, val_main_v19_apply, val_main_v18_apply,
    norms, val_main_v17_apply, val_main_cst_apply, val_main_call2_v1_apply, val_main_call2_v0_apply,
    val_main_cst_0_apply]
  rfl

end Cert.ReferenceIdeal.Hand

end
-- ==== Proof.lean ====
/-
  The kernel and its reference compute one function on the extended reals.

  Both programs take two [16, 512, 128] arrays A0, A1 and a [20, 128] weight array W and return the [16, 512, 512, 20]
  array of weighted cosine similarities
      entry (b, s, t, l) = (Σ_k A0(b,s,k) · W(l,k)² · A1(b,t,k)) / max-guard (‖A0(b,s,·)‖_l · ‖A1(b,t,·)‖_l),
  the weighted norms ‖x‖_l = sqrt (Σ_k x(k)² · W(l,k)²) and the guard replacing a denominator that does not exceed ε
  by ε (Proof/Spec.lean). The kernel runs over a 16 × 8 grid, one batch and one block of 64 rows per point, and builds
  its tile lane by lane (Proof/Lane.lean, Stack.lean, Tile.lean, Entry.lean); the tiles cover the result array
  (Proof/Blocks.lean). The reference weights each operand once and re-brackets every summand (Proof/RefValue.lean).
  The two agree summand by summand by commutativity and associativity of the product of extended reals alone, so
  the precondition (finite inputs) is never opened.
-/
import proofs.«125987_j34986803593512_2_alg».proof.Defs
import proofs.«125987_j34986803593512_2_alg».proof.Proof.Gen.Kernel
import proofs.«125987_j34986803593512_2_alg».proof.Proof.Gen.Kernel.Skeleton
import proofs.«125987_j34986803593512_2_alg».proof.Proof.Gen.Kernel.Launch
import proofs.«125987_j34986803593512_2_alg».proof.Proof.Gen.Kernel.Points
import proofs.«125987_j34986803593512_2_alg».proof.Proof.Gen.Kernel.Frame
import proofs.«125987_j34986803593512_2_alg».proof.Proof.Gen.KernelIdeal
import proofs.«125987_j34986803593512_2_alg».proof.Proof.Gen.KernelIdeal.Skeleton
import proofs.«125987_j34986803593512_2_alg».proof.Proof.Gen.KernelIdeal.Launch
import proofs.«125987_j34986803593512_2_alg».proof.Proof.Gen.KernelIdeal.Points
import proofs.«125987_j34986803593512_2_alg».proof.Proof.Gen.KernelIdeal.Frame
import proofs.«125987_j34986803593512_2_alg».proof.Proof.Gen.KernelIdeal.Value
import proofs.«125987_j34986803593512_2_alg».proof.Proof.Gen.ReferenceIdeal
import proofs.«125987_j34986803593512_2_alg».proof.Proof.Gen.ReferenceIdeal.Run
import proofs.«125987_j34986803593512_2_alg».proof.Proof.Gen.ReferenceIdeal.Read
import proofs.«125987_j34986803593512_2_alg».proof.Proof.Gen.Pre_finite_inputs
import proofs.«125987_j34986803593512_2_alg».proof.Proof.Blocks
import proofs.«125987_j34986803593512_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- Run from memories that agree on the arguments, the kernel's result array ends at the specification's function of
    its arguments (the tiles cover it) and the reference's at the same function of its own (stage by stage). -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Hand.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
